-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x4 : Shape := ⟨2, ![600000, 4]⟩
abbrev S2x600000 : Shape := ⟨2, ![2, 600000]⟩
abbrev S50000 : Shape := ⟨1, ![50000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x4 : S_.BroadcastsInDim S600000x4 (![] : Fin 0 → Fin S600000x4.rank)
  reducesTo_S600000x4_S_d0_1 : S600000x4.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S10x128 .f32) (main_arg10 : FVec F S10 .f32) (main_v33 : IVec S_ 1) : IVec S_ 1 :=
  let main_v34 : FVec F S10x128 .f32 := Host.absf main_arg9
  let main_cst_12 : FVec F S_ .f32 := constant S_ .f32 0x7F800000#32
  let main_v35 : FVec F S10x128 .f32 := broadcastInDim S10x128 ![] bcast_S_S10x128 main_cst_12
  let main_v36 : IVec S10x128 1 := cmpf .olt main_v34 main_v35
  let main_c_13 : IVec S_ 1 := constantI S_ 1 1#1
  let main_v37 : IVec S_ 1 := (fun x v => Host.reduce IntOp.andi x v reducesTo_S10x128_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S3x128x128 .f32) (main_arg7 : FVec F S128x128 .f32) (main_arg8 : FVec F S128 .f32) (main_arg9 : FVec F S10x128 .f32) (main_arg10 : FVec F S10 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg6
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : FVec F S600000x4 .f32) (main_arg2 : IVec S2x600000 32) (main_arg3 : IVec S50000 32) (main_arg4 : FVec F S3x128x128 .f32) (main_arg5 : FVec F S3x128 .f32) (main_arg6 : FVec F S3x128x128 .f32) (main_arg7 : FVec F S128x128 .f32) (main_arg8 : FVec F S128 .f32) (main_arg9 : FVec F S10x128 .f32) (main_arg10 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x4 .f32 := Host.absf main_arg1
  let main_cst_0 : FVec F S_ .f32 := constant S_ .f32 0x7F800000#32
  let main_v5 : FVec F S600000x4 .f32 := broadcastInDim S600000x4 ![] bcast_S_S600000x4 main_cst_0
  let main_v6 : IVec S600000x4 1 := cmpf .olt main_v4 main_v5
  let main_c_1 : IVec S_ 1 := constantI S_ 1 1#1
  let main_v7 : IVec S_ 1 := (fun x v => Host.reduce IntOp.andi x v reducesTo_S600000x4_S_d0_1 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S600000x4 : Shape := ⟨2, ![600000, 4]⟩
abbrev S2x600000 : Shape := ⟨2, ![2, 600000]⟩
abbrev S50000 : Shape := ⟨1, ![50000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x600000 : Shape := ⟨2, ![1, 600000]⟩
abbrev S600000 : Shape := ⟨1, ![600000]⟩
abbrev S_ : Shape := ⟨0, ![]⟩
abbrev S3x1x128 : Shape := ⟨3, ![3, 1, 128]⟩
abbrev S600000x1 : Shape := ⟨2, ![600000, 1]⟩
abbrev S600000x128 : Shape := ⟨2, ![600000, 128]⟩
abbrev S50000x1 : Shape := ⟨2, ![50000, 1]⟩
abbrev S1x128x128 : Shape := ⟨3, ![1, 128, 128]⟩
abbrev S1x1x128 : Shape := ⟨3, ![1, 1, 128]⟩
abbrev S1x128 : Shape := ⟨2, ![1, 128]⟩
abbrev S5000x128 : Shape := ⟨2, ![5000, 128]⟩
abbrev S500x128 : Shape := ⟨2, ![500, 128]⟩
abbrev S512x128 : Shape := ⟨2, ![512, 128]⟩
abbrev S128x10 : Shape := ⟨2, ![128, 10]⟩
abbrev S1x10 : Shape := ⟨2, ![1, 10]⟩
abbrev S512x10 : Shape := ⟨2, ![512, 10]⟩
abbrev S512 : Shape := ⟨1, ![512]⟩
abbrev S512x1 : Shape := ⟨2, ![512, 1]⟩
abbrev S500x10 : Shape := ⟨2, ![500, 10]⟩

abbrev nBuf : Space → Nat
  | .hbm => 123
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S600000x4, .f32⟩
  | .hbm, ⟨2, _⟩ => ⟨S2x600000, .i32⟩
  | .hbm, ⟨3, _⟩ => ⟨S50000, .i32⟩
  | .hbm, ⟨4, _⟩ => ⟨S3x128x128, .f32⟩
  | .hbm, ⟨5, _⟩ => ⟨S3x128, .f32⟩
  | .hbm, ⟨6, _⟩ => ⟨S3x128x128, .f32⟩
  | .hbm, ⟨7, _⟩ => ⟨S128x128, .f32⟩
  | .hbm, ⟨8, _⟩ => ⟨S128, .f32⟩
  | .hbm, ⟨9, _⟩ => ⟨S10x128, .f32⟩
  | .hbm, ⟨10, _⟩ => ⟨S10, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .f32⟩
  | .hbm, ⟨16, _⟩ => ⟨S600000, .f32⟩
  | .hbm, ⟨17, _⟩ => ⟨S3x128x128, .f32⟩
  | .hbm, ⟨18, _⟩ => ⟨S3x128x128, .f32⟩
  | .hbm, ⟨19, _⟩ => ⟨S3x1x128, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .f32⟩
  | .hbm, ⟨30, _⟩ => ⟨S50000x128, .f32⟩
  | .hbm, ⟨31, _⟩ => ⟨S600000x1, .i32⟩
  | .hbm, ⟨32, _⟩ => ⟨S50000x128, .f32⟩
  | .hbm, ⟨33, _⟩ => ⟨S_, .f32⟩
  | .hbm, ⟨34, _⟩ => ⟨S50000, .f32⟩
  | .hbm, ⟨35, _⟩ => ⟨S600000x1, .i32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S1x128x128, .f32⟩
  | .hbm, ⟨44, _⟩ => ⟨S128x128, .f32⟩
  | .hbm, ⟨45, _⟩ => ⟨S1x1x128, .f32⟩
  | .hbm, ⟨46, _⟩ => ⟨S1x128, .f32⟩
  | .hbm, ⟨47, _⟩ => ⟨S1x128x128, .f32⟩
  | .hbm, ⟨48, _⟩ => ⟨S128x128, .f32⟩
  | .hbm, ⟨49, _⟩ => ⟨S50000x128, .f32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x128, .f32⟩
  | .hbm, ⟨59, _⟩ => ⟨S_, .f32⟩
  | .hbm, ⟨60, _⟩ => ⟨S50000x128, .f32⟩
  | .hbm, ⟨61, _⟩ => ⟨S600000x1, .i32⟩
  | .hbm, ⟨62, _⟩ => ⟨S50000x128, .f32⟩
  | .hbm, ⟨63, _⟩ => ⟨S_, .f32⟩
  | .hbm, ⟨64, _⟩ => ⟨S50000, .f32⟩
  | .hbm, ⟨65, _⟩ => ⟨S600000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S1x128x128, .f32⟩
  | .hbm, ⟨74, _⟩ => ⟨S128x128, .f32⟩
  | .hbm, ⟨75, _⟩ => ⟨S1x1x128, .f32⟩
  | .hbm, ⟨76, _⟩ => ⟨S1x128, .f32⟩
  | .hbm, ⟨77, _⟩ => ⟨S1x128x128, .f32⟩
  | .hbm, ⟨78, _⟩ => ⟨S128x128, .f32⟩
  | .hbm, ⟨79, _⟩ => ⟨S50000x128, .f32⟩
  | .hbm, ⟨80, _⟩ => ⟨S_, .i32⟩
  | .hbm, ⟨81, _⟩ => ⟨S600000, .i32⟩
  | .hbm, ⟨82, _⟩ => ⟨S600000, .i1⟩
  | .hbm, ⟨83, _⟩ => ⟨S_, .i32⟩
  | .hbm, ⟨84, _⟩ => ⟨S600000, .i32⟩
  | .hbm, ⟨85, _⟩ => ⟨S600000, .i32⟩
  | .hbm, ⟨86, _⟩ => ⟨S600000, .i32⟩
  | .hbm, ⟨87, _⟩ => ⟨S600000x1, .i32⟩
  | .hbm, ⟨88, _⟩ => ⟨S600000x128, .f32⟩
  | .hbm, ⟨89, _⟩ => ⟨S_, .f32⟩
  | .hbm, ⟨90, _⟩ => ⟨S50000x128, .f32⟩
  | .hbm, ⟨91, _⟩ => ⟨S600000x1, .i32⟩
  | .hbm, ⟨92, _⟩ => ⟨S50000x128, .f32⟩
  | .hbm, ⟨93, _⟩ => ⟨S_, .f32⟩
  | .hbm, ⟨94, _⟩ => ⟨S50000, .f32⟩
  | .hbm, ⟨95, _⟩ => ⟨S600000x1, .i32⟩
  | .hbm, ⟨96, _⟩ => ⟨S50000, .f32⟩
  | .hbm, ⟨97, _⟩ => ⟨S_, .f32⟩
  | .hbm, ⟨98, _⟩ => ⟨S50000, .f32⟩
  | .hbm, ⟨99, _⟩ => ⟨S50000, .f32⟩
  | .hbm, ⟨100, _⟩ => ⟨S50000x1, .f32⟩
  | .hbm, ⟨101, _⟩ => ⟨S50000x128, .f32⟩
  | .hbm, ⟨102, _⟩ => ⟨S50000x128, .f32⟩
  | .hbm, ⟨103, _⟩ => ⟨S1x128x128, .f32⟩
  | .hbm, ⟨104, _⟩ => ⟨S128x128, .f32⟩
  | .hbm, ⟨105, _⟩ => ⟨S1x1x128, .f32⟩
  | .hbm, ⟨106, _⟩ => ⟨S1x128, .f32⟩
  | .hbm, ⟨107, _⟩ => ⟨S1x128x128, .f32⟩
  | .hbm, ⟨108, _⟩ => ⟨S128x128, .f32⟩
  | .hbm, ⟨109, _⟩ => ⟨S50000x128, .f32⟩
  | .hbm, ⟨110, _⟩ => ⟨S_, .f32⟩
  | .hbm, ⟨111, _⟩ => ⟨S500x128, .f32⟩
  | .hbm, ⟨112, _⟩ => ⟨S50000x1, .i32⟩
  | .hbm, ⟨113, _⟩ => ⟨S500x128, .f32⟩
  | .hbm, ⟨114, _⟩ => ⟨S_, .i32⟩
  | .hbm, ⟨115, _⟩ => ⟨S_, .f32⟩
  | .hbm, ⟨116, _⟩ => ⟨S512x128, .f32⟩
  | .hbm, ⟨117, _⟩ => ⟨S128x128, .f32⟩
  | .hbm, ⟨118, _⟩ => ⟨S128x10, .f32⟩
  | .hbm, ⟨119, _⟩ => ⟨S1x128, .f32⟩
  | .hbm, ⟨120, _⟩ => ⟨S1x10, .f32⟩
  | .hbm, ⟨121, _⟩ => ⟨S512x10, .f32⟩
  | .hbm, ⟨122, _⟩ => ⟨S500x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S512x128, .f32⟩
  | .local _ .vmem, ⟨28, _⟩ => ⟨S128x128, .f32⟩
  | .local _ .vmem, ⟨29, _⟩ => ⟨S1x128, .f32⟩
  | .local _ .vmem, ⟨30, _⟩ => ⟨S128x10, .f32⟩
  | .local _ .vmem, ⟨31, _⟩ => ⟨S1x10, .f32⟩
  | .local _ .vmem, ⟨32, _⟩ => ⟨S512x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_9 : Ref sig .tc := ⟨.hbm, 80, rfl⟩
abbrev main_v58 : Ref sig .tc := ⟨.hbm, 81, rfl⟩
abbrev main_v59 : Ref sig .tc := ⟨.hbm, 82, rfl⟩
abbrev main_c_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_12 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_14 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_c_15 : Ref sig .tc := ⟨.hbm, 114, rfl⟩
abbrev main_call0_v0 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  transposes_S3x128x128_S3x128x128_0_2_1 : S3x128x128.Transposes [0, 2, 1] S3x128x128
  shapeCasts_S3x128_S3x1x128 : S3x128.ShapeCasts S3x1x128
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x1x128_S1x1x128_0_0_0 : S3x1x128.Slices ![0, 0, 0] S1x1x128
  shapeCasts_S1x1x128_S1x128 : S1x1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x1x128_S1x1x128_1_0_0 : S3x1x128.Slices ![1, 0, 0] S1x1x128
  slices_S3x128x128_S1x128x128_2_0_0 : S3x128x128.Slices ![2, 0, 0] S1x128x128
  slices_S3x1x128_S1x1x128_2_0_0 : S3x1x128.Slices ![2, 0, 0] S1x1x128
  bcast_S_S500x128 : S_.BroadcastsInDim S500x128 (![] : Fin 0 → Fin S500x128.rank)
  pads_S500x128_S512x128_0120_000 : S500x128.Pads (![0, 0] : Fin 2 → Nat) ![12, 0] ![0, 0] S512x128
  h_S_ : 0 < S_.numel
  transposes_S128x128_S128x128_1_0 : S128x128.Transposes [1, 0] S128x128
  transposes_S10x128_S128x10_1_0 : S10x128.Transposes [1, 0] S128x10
  shapeCasts_S128_S1x128 : S128.ShapeCasts S1x128
  shapeCasts_S10_S1x10 : S10.ShapeCasts S1x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  slices_S512x10_S500x10_0_0 : S512x10.Slices ![0, 0] S500x10
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  scatter_S500x128_S50000x1_S50000x128_1_0_0_1_wf : ScatterDims.WF S500x128 S50000x1 S50000x128 [1] [0] [0] 1
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x10.size a ≤ S128x10.size a
  hwx3_3 : ∀ i : grid3.Coords, EltTy.bits .f32 = 32 ∨ (Rect.block (s := S128x10) S128x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x10.size a ≤ S1x10.size a
  hwx3_4 : ∀ i : grid3.Coords, EltTy.bits .f32 = 32 ∨ (Rect.block (s := S1x10) S1x10.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x10.size a ≤ S512x10.size a
  hwx3_5 : ∀ i : grid3.Coords, EltTy.bits .f32 = 32 ∨ (Rect.block (s := S512x10) S512x10.size (cc3_transform_5 i) (hinb3_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_v25) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v50) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v75) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v77) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v79) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v81) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v82) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v86) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v87) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v89) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v88) S128x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v90) S1x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v91) S512x10.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S600000x4 : Shape := ⟨2, ![600000, 4]⟩
abbrev S2x600000 : Shape := ⟨2, ![2, 600000]⟩
abbrev S50000 : Shape := ⟨1, ![50000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x600000 : Shape := ⟨2, ![1, 600000]⟩
abbrev S600000 : Shape := ⟨1, ![600000]⟩
abbrev S1x128x128 : Shape := ⟨3, ![1, 128, 128]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S500x128 : Shape := ⟨2, ![500, 128]⟩
abbrev S128x10 : Shape := ⟨2, ![128, 10]⟩
abbrev S500x10 : Shape := ⟨2, ![500, 10]⟩
abbrev S1x10 : Shape := ⟨2, ![1, 10]⟩
abbrev S500 : Shape := ⟨1, ![500]⟩
abbrev S500x1 : Shape := ⟨2, ![500, 1]⟩

abbrev nBuf : Space → Nat
  | .hbm => 176
  | .vmem => 0
  | .smem => 0
  | _ => 0

abbrev hbmTy0_0 (i : Nat) : BufTy := match i % 128 with
  | 0 => ⟨S50000x128, .f32⟩
  | 1 => ⟨S600000x4, .f32⟩
  | 2 => ⟨S2x600000, .i32⟩
  | 3 => ⟨S50000, .i32⟩
  | 4 => ⟨S3x128x128, .f32⟩
  | 5 => ⟨S3x128, .f32⟩
  | 6 => ⟨S3x128x128, .f32⟩
  | 7 => ⟨S128x128, .f32⟩
  | 8 => ⟨S128, .f32⟩
  | 9 => ⟨S10x128, .f32⟩
  | 10 => ⟨S10, .f32⟩
  | 11 => ⟨S1x600000, .i32⟩
  | 12 => ⟨S600000, .i32⟩
  | 13 => ⟨S1x600000, .i32⟩
  | 14 => ⟨S600000, .i32⟩
  | 15 => ⟨S1x128x128, .f32⟩
  | 16 => ⟨S128x128, .f32⟩
  | 17 => ⟨S1x128, .f32⟩
  | 18 => ⟨S128, .f32⟩
  | 19 => ⟨S1x128x128, .f32⟩
  | 20 => ⟨S128x128, .f32⟩
  | 21 => ⟨S_, .i32⟩
  | 22 => ⟨S600000, .i32⟩
  | 23 => ⟨S600000, .i1⟩
  | 24 => ⟨S_, .i32⟩
  | 25 => ⟨S600000, .i32⟩
  | 26 => ⟨S600000, .i32⟩
  | 27 => ⟨S600000, .i32⟩
  | 28 => ⟨S600000x1, .i32⟩
  | 29 => ⟨S600000x128, .f32⟩
  | 30 => ⟨S_, .f32⟩
  | 31 => ⟨S50000x128, .f32⟩
  | 32 => ⟨S600000x1, .i32⟩
  | 33 => ⟨S50000x128, .f32⟩
  | 34 => ⟨S_, .f32⟩
  | 35 => ⟨S600000, .f32⟩
  | 36 => ⟨S_, .f32⟩
  | 37 => ⟨S50000, .f32⟩
  | 38 => ⟨S600000x1, .i32⟩
  | 39 => ⟨S50000, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S128x128, .f32⟩
  | 47 => ⟨S50000x128, .f32⟩
  | 48 => ⟨S1x128, .f32⟩
  | 49 => ⟨S50000x128, .f32⟩
  | 50 => ⟨S50000x128, .f32⟩
  | 51 => ⟨S128x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S1x128x128, .f32⟩
  | 58 => ⟨S128x128, .f32⟩
  | 59 => ⟨S1x128, .f32⟩
  | 60 => ⟨S128, .f32⟩
  | 61 => ⟨S1x128x128, .f32⟩
  | 62 => ⟨S128x128, .f32⟩
  | 63 => ⟨S_, .i32⟩
  | 64 => ⟨S600000, .i32⟩
  | 65 => ⟨S600000, .i1⟩
  | 66 => ⟨S_, .i32⟩
  | 67 => ⟨S600000, .i32⟩
  | 68 => ⟨S600000, .i32⟩
  | 69 => ⟨S600000, .i32⟩
  | 70 => ⟨S600000x1, .i32⟩
  | 71 => ⟨S600000x128, .f32⟩
  | 72 => ⟨S_, .f32⟩
  | 73 => ⟨S50000x128, .f32⟩
  | 74 => ⟨S600000x1, .i32⟩
  | 75 => ⟨S50000x128, .f32⟩
  | 76 => ⟨S_, .f32⟩
  | 77 => ⟨S600000, .f32⟩
  | 78 => ⟨S_, .f32⟩
  | 79 => ⟨S50000, .f32⟩
  | 80 => ⟨S600000x1, .i32⟩
  | 81 => ⟨S50000, .f32⟩
  | 82 => ⟨S_, .f32⟩
  | 83 => ⟨S50000, .f32⟩
  | 84 => ⟨S50000, .f32⟩
  | 85 => ⟨S50000x1, .f32⟩
  | 86 => ⟨S50000x128, .f32⟩
  | 87 => ⟨S50000x128, .f32⟩
  | 88 => ⟨S128x128, .f32⟩
  | 89 => ⟨S50000x128, .f32⟩
  | 90 => ⟨S1x128, .f32⟩
  | 91 => ⟨S50000x128, .f32⟩
  | 92 => ⟨S50000x128, .f32⟩
  | 93 => ⟨S128x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S1x128x128, .f32⟩
  | 100 => ⟨S128x128, .f32⟩
  | 101 => ⟨S1x128, .f32⟩
  | 102 => ⟨S128, .f32⟩
  | 103 => ⟨S1x128x128, .f32⟩
  | 104 => ⟨S128x128, .f32⟩
  | 105 => ⟨S_, .i32⟩
  | 106 => ⟨S600000, .i32⟩
  | 107 => ⟨S600000, .i1⟩
  | 108 => ⟨S_, .i32⟩
  | 109 => ⟨S600000, .i32⟩
  | 110 => ⟨S600000, .i32⟩
  | 111 => ⟨S600000, .i32⟩
  | 112 => ⟨S600000x1, .i32⟩
  | 113 => ⟨S600000x128, .f32⟩
  | 114 => ⟨S_, .f32⟩
  | 115 => ⟨S50000x128, .f32⟩
  | 116 => ⟨S600000x1, .i32⟩
  | 117 => ⟨S50000x128, .f32⟩
  | 118 => ⟨S_, .f32⟩
  | 119 => ⟨S600000, .f32⟩
  | 120 => ⟨S_, .f32⟩
  | 121 => ⟨S50000, .f32⟩
  | 122 => ⟨S600000x1, .i32⟩
  | 123 => ⟨S50000, .f32⟩
  | 124 => ⟨S_, .f32⟩
  | 125 => ⟨S50000, .f32⟩
  | 126 => ⟨S50000, .f32⟩
  | 127 => ⟨S50000x1, .f32⟩
  | _ => ⟨S50000x128, .f32⟩

abbrev hbmTy0_1 (i : Nat) : BufTy := match i % 128 with
  | 0 => ⟨S50000x128, .f32⟩
  | 1 => ⟨S50000x128, .f32⟩
  | 2 => ⟨S128x128, .f32⟩
  | 3 => ⟨S50000x128, .f32⟩
  | 4 => ⟨S1x128, .f32⟩
  | 5 => ⟨S50000x128, .f32⟩
  | 6 => ⟨S50000x128, .f32⟩
  | 7 => ⟨S128x128, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S_, .f32⟩
  | 14 => ⟨S500x128, .f32⟩
  | 15 => ⟨S50000x1, .i32⟩
  | 16 => ⟨S500x128, .f32⟩
  | 17 => ⟨S_, .f32⟩
  | 18 => ⟨S500x128, .f32⟩
  | 19 => ⟨S500x128, .f32⟩
  | 20 => ⟨S128x128, .f32⟩
  | 21 => ⟨S500x128, .f32⟩
  | 22 => ⟨S1x128, .f32⟩
  | 23 => ⟨S500x128, .f32⟩
  | 24 => ⟨S500x128, .f32⟩
  | 25 => ⟨S_, .f32⟩
  | 26 => ⟨S500x128, .f32⟩
  | 27 => ⟨S500x128, .f32⟩
  | 28 => ⟨S128x10, .f32⟩
  | 29 => ⟨S500x10, .f32⟩
  | 30 => ⟨S1x10, .f32⟩
  | 31 => ⟨S500x10, .f32⟩
  | 32 => ⟨S500x10, .f32⟩
  | 33 => ⟨S_, .f32⟩
  | 34 => ⟨S500, .f32⟩
  | 35 => ⟨S_, .f32⟩
  | 36 => ⟨S500, .f32⟩
  | 37 => ⟨S500, .f32⟩
  | 38 => ⟨S500x1, .f32⟩
  | 39 => ⟨S500x10, .f32⟩
  | 40 => ⟨S500x10, .f32⟩
  | 41 => ⟨S500x10, .f32⟩
  | 42 => ⟨S_, .f32⟩
  | 43 => ⟨S500, .f32⟩
  | 44 => ⟨S500x1, .f32⟩
  | 45 => ⟨S500x1, .f32⟩
  | 46 => ⟨S500x10, .f32⟩
  | 47 => ⟨S500x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_cst : Ref sig .tc := ⟨.hbm, 54, rfl⟩
abbrev main_call0_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_4 : Ref sig .tc := ⟨.hbm, 63, rfl⟩
abbrev main_v44 : Ref sig .tc := ⟨.hbm, 64, rfl⟩
abbrev main_v45 : Ref sig .tc := ⟨.hbm, 65, rfl⟩
abbrev main_c_5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_6 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_cst_8 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_call1_cst : Ref sig .tc := ⟨.hbm, 96, rfl⟩
abbrev main_call1_v0 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_c_10 : Ref sig .tc := ⟨.hbm, 105, rfl⟩
abbrev main_v78 : Ref sig .tc := ⟨.hbm, 106, rfl⟩
abbrev main_v79 : Ref sig .tc := ⟨.hbm, 107, rfl⟩
abbrev main_c_11 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_12 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_13 : Ref sig .tc := ⟨.hbm, 118, rfl⟩
abbrev main_v88 : Ref sig .tc := ⟨.hbm, 119, rfl⟩
abbrev main_cst_14 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_15 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_call2_cst : Ref sig .tc := ⟨.hbm, 138, rfl⟩
abbrev main_call2_v0 : Ref sig .tc := ⟨.hbm, 139, rfl⟩
abbrev main_v105 : Ref sig .tc := ⟨.hbm, 140, rfl⟩
abbrev main_cst_16 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_call3_cst : Ref sig .tc := ⟨.hbm, 145, rfl⟩
abbrev main_call3_v0 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_call4_cst : Ref sig .tc := ⟨.hbm, 153, rfl⟩
abbrev main_call4_v0 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_call5_cst : Ref sig .tc := ⟨.hbm, 161, rfl⟩
abbrev main_call5_v0 : Ref sig .tc := ⟨.hbm, 162, rfl⟩
abbrev main_call5_cst_0 : Ref sig .tc := ⟨.hbm, 163, rfl⟩
abbrev main_call5_v1 : Ref sig .tc := ⟨.hbm, 164, rfl⟩
abbrev main_call5_v2 : Ref sig .tc := ⟨.hbm, 165, rfl⟩
abbrev main_call5_v3 : Ref sig .tc := ⟨.hbm, 166, rfl⟩
abbrev main_call5_v4 : Ref sig .tc := ⟨.hbm, 167, rfl⟩
abbrev main_call5_v5 : Ref sig .tc := ⟨.hbm, 168, rfl⟩
abbrev main_call5_v6 : Ref sig .tc := ⟨.hbm, 169, rfl⟩
abbrev main_call5_cst_1 : Ref sig .tc := ⟨.hbm, 170, rfl⟩
abbrev main_call5_v7 : Ref sig .tc := ⟨.hbm, 171, rfl⟩
abbrev main_call5_v8 : Ref sig .tc := ⟨.hbm, 172, rfl⟩
abbrev main_call5_v9 : Ref sig .tc := ⟨.hbm, 173, rfl⟩
abbrev main_call5_v10 : Ref sig .tc := ⟨.hbm, 174, rfl⟩
abbrev main_v121 : Ref sig .tc := ⟨.hbm, 175, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S500x128 : S_.BroadcastsInDim S500x128 (![] : Fin 0 → Fin S500x128.rank)
  bcast_S1x128_S500x128_0_1 : S1x128.BroadcastsInDim S500x128 (![0, 1] : Fin 2 → Fin S500x128.rank)
  transposes_S10x128_S128x10_1_0 : S10x128.Transposes [1, 0] S128x10
  bcast_S10_S1x10_1 : S10.BroadcastsInDim S1x10 (![1] : Fin 1 → Fin S1x10.rank)
  bcast_S1x10_S500x10_0_1 : S1x10.BroadcastsInDim S500x10 (![0, 1] : Fin 2 → Fin S500x10.rank)
  reducesTo_S500x10_S500_d1 : S500x10.ReducesTo [1] S500
  h_S_ : 0 < S_.numel
  bcast_S_S500 : S_.BroadcastsInDim S500 (![] : Fin 0 → Fin S500.rank)
  bcast_S500_S500x1_0 : S500.BroadcastsInDim S500x1 (![0] : Fin 1 → Fin S500x1.rank)
  bcast_S500x1_S500x10_0_1 : S500x1.BroadcastsInDim S500x10 (![0, 1] : Fin 2 → Fin S500x10.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  scatter_S500x128_S50000x1_S50000x128_1_0_0_1_wf : ScatterDims.WF S500x128 S50000x1 S50000x128 [1] [0] [0] 1
  dot_S500x128_S128x128_S500x128_1_0_0_1_n_n_wf : DotDims.WF S500x128 S128x128 S500x128 [1] [0] [0] [1] [] []
  dot_S500x128_S128x10_S500x10_1_0_0_1_n_n_wf : DotDims.WF S500x128 S128x10 S500x10 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def dot_S500x128_S128x128_S500x128_1_0_0_1_n_n : DotDims S500x128 S128x128 S500x128 where
  lhsContracting := [1]
  rhsContracting := [0]
  lhsNonContracting := [0]
  rhsNonContracting := [1]
  lhsBatch := []
  rhsBatch := []
  wf := dot_S500x128_S128x128_S500x128_1_0_0_1_n_n_wf
def dot_S500x128_S128x10_S500x10_1_0_0_1_n_n : DotDims S500x128 S128x10 S500x10 where
  lhsContracting := [1]
  rhsContracting := [0]
  lhsNonContracting := [0]
  rhsNonContracting := [1]
  lhsBatch := []
  rhsBatch := []
  wf := dot_S500x128_S128x10_S500x10_1_0_0_1_n_n_wf

class Facts : Prop extends Facts₀ where

variable [Facts]
-- ==== Proof.KRun.lean ====
/-
  The idealized kernel's run with its result NAMED: every weakly fair execution of @main terminates, nothing faults, the
  result buffer ends at the last boundary's contents `W11` (the fold of the host stretches and the four regions' write-backs
  from the launch memory) and the arguments end as launched. It is the launch over @main's eleven segments that the frame
  uses, with one more buffer read off the final state.
-/
import proofs.«107780_j45122926412013_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result buffer read at the last boundary's contents. -/
theorem run_out : θ_run defs (onTc (τ := τ) (main (F := F))) ⟨m, fun _ => 0, ρ⟩ (fun r => ∀ c : Dev nD,
      r.2.mem ((c.tc : Thread nD τ).loc main_v92) = W11 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v92 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.KRun

end
-- ==== Proof.Spec.lean ====
/-
  The mathematics both programs compute, index by index, over the extended reals.

  One SAGE layer's dense part: at node `r` and feature `c`,
      max ( Σ_k mean[r,k]·wl[k,c] + Σ_k x[r,k]·wr[k,c] + b[0,c] , 0 ).
  The head, one pooled row `g` at a time: the hidden row `h[c] = max(Σ_k max(g[k],0)·w1[k,c] + b1[0,c], 0)`,
  the logits `l[j] = Σ_c h[c]·w2[c,j] + b2[0,j]`, and their log-softmax
      l[j] − M − log Σ_j' exp(l[j'] − M),   M the fold of `max` over the row from −∞.
  Float literals stay as their words: the same word stands on both sides and is never evaluated.
-/
import Idealize.ShloMosaic.PureOps.Ideal
import Idealize.ShloMosaic.Lib.ValueIdx

noncomputable section

namespace Cert.Spec

open Idealize.ShloMosaic Idealize.ShloMosaic.ValueIdx

/-- The word of `0.0` read at the ideal values (kept as a word). -/
abbrev Z : EReal := Ideal.ofBits .f32 0x00000000#32
/-- The word of `−∞` read at the ideal values (kept as a word). -/
abbrev NegInf : EReal := Ideal.ofBits .f32 0xFF800000#32

/-- One layer at node `r`, feature `c`: the two matrix products, the bias row, the rectifier. -/
def layerAt (mean x : FVec Ideal ⟨2, ![50000, 128]⟩ .f32) (wl : FVec Ideal ⟨2, ![128, 128]⟩ .f32)
    (b : FVec Ideal ⟨2, ![1, 128]⟩ .f32) (wr : FVec Ideal ⟨2, ![128, 128]⟩ .f32) (r : Fin 50000) (c : Fin 128) : EReal :=
  max (((∑ k : Fin 128, mean (ix2 r k) * wl (ix2 k c)) + (∑ k : Fin 128, x (ix2 r k) * wr (ix2 k c))) + b (ix2 (0 : Fin 1) c)) Z

/-- One layer as a whole array. -/
def layer (mean x : FVec Ideal ⟨2, ![50000, 128]⟩ .f32) (wl : FVec Ideal ⟨2, ![128, 128]⟩ .f32)
    (b : FVec Ideal ⟨2, ![1, 128]⟩ .f32) (wr : FVec Ideal ⟨2, ![128, 128]⟩ .f32) : FVec Ideal ⟨2, ![50000, 128]⟩ .f32 :=
  fun i => layerAt mean x wl b wr (i 0) (i 1)

/-- The head's hidden row from one pooled row `g`. -/
def hidden (g : Fin 128 → EReal) (w1 : FVec Ideal ⟨2, ![128, 128]⟩ .f32) (b1 : FVec Ideal ⟨2, ![1, 128]⟩ .f32) (c : Fin 128) : EReal :=
  max ((∑ k : Fin 128, max (g k) Z * w1 (ix2 k c)) + b1 (ix2 (0 : Fin 1) c)) Z

/-- The head's logits from one pooled row. -/
def logit (g : Fin 128 → EReal) (w1 : FVec Ideal ⟨2, ![128, 128]⟩ .f32) (b1 : FVec Ideal ⟨2, ![1, 128]⟩ .f32)
    (w2 : FVec Ideal ⟨2, ![128, 10]⟩ .f32) (b2 : FVec Ideal ⟨2, ![1, 10]⟩ .f32) (j : Fin 10) : EReal :=
  (∑ c : Fin 128, hidden g w1 b1 c * w2 (ix2 c j)) + b2 (ix2 (0 : Fin 1) j)

/-- A row's maximum: the fold of `max` from −∞. -/
def rowMax (l : Fin 10 → EReal) : EReal := (Finset.univ : Finset (Fin 10)).fold max NegInf l

/-- The log-softmax of one row of ten logits. -/
def logSoftmaxRow (l : Fin 10 → EReal) (j : Fin 10) : EReal :=
  (l j - rowMax l) - Ideal.log (∑ j' : Fin 10, Ideal.exp (l j' - rowMax l))

/-- The head on one pooled row. -/
def headRow (g : Fin 128 → EReal) (w1 : FVec Ideal ⟨2, ![128, 128]⟩ .f32) (b1 : FVec Ideal ⟨2, ![1, 128]⟩ .f32)
    (w2 : FVec Ideal ⟨2, ![128, 10]⟩ .f32) (b2 : FVec Ideal ⟨2, ![1, 10]⟩ .f32) (j : Fin 10) : EReal :=
  logSoftmaxRow (logit g w1 b1 w2 b2) j

end Cert.Spec

end
-- ==== Proof.Shared.lean ====
/-
  The whole network as ONE function of the argument arrays, written once and used for both programs.

  The mean aggregation (`agg`: gather the source rows, add them into the target rows, divide by the clamped in-degree)
  and the graph pooling (`pool`) are the same chain of host operations in both programs; they are carried as opaque
  functions and never opened. The three layers apply `Spec.layer` to the aggregated and the current features with the
  layer's weights (`wl l`, `wr l`: the transposed slices; `bias l`: the bias row), and the head applies `Spec.headRow`
  to each pooled row.
-/
import proofs.«107780_j45122926412013_1_alg».proof.Proof.Gen.KernelIdeal
import proofs.«107780_j45122926412013_1_alg».proof.Proof.Spec

noncomputable section

namespace Cert.Shared

open Idealize.ShloMosaic Idealize.ShloMosaic.TcCoe Idealize.ShloMosaic.ValueIdx Cert.KernelIdeal Cert.KernelIdeal.Gen

/-- The edges' source ids (row 0 of the edge list). -/
def srcIds (ei : IVec S2x600000 32) : IVec S600000 32 :=
  shapeCast S600000 (extractStridedSlice S1x600000 ![0, 0] ei slices_S2x600000_S1x600000_0_0) shapeCasts_S1x600000_S600000

/-- The edges' target ids (row 1 of the edge list). -/
def dstIds (ei : IVec S2x600000 32) : IVec S600000 32 :=
  shapeCast S600000 (extractStridedSlice S1x600000 ![1, 0] ei slices_S2x600000_S1x600000_1_0) shapeCasts_S1x600000_S600000

/-- The mean of the source rows at each target node: the scatter-added gathered rows over the clamped in-degree. -/
def agg (x : FVec Ideal S50000x128 .f32) (ei : IVec S2x600000 32) : FVec Ideal S50000x128 .f32 :=
  Host.divf
    (Host.scatterAdd scatter_S50000x128_S600000x1_S600000x128_1_0_0_1
      (broadcastInDim S50000x128 ![] bcast_S_S50000x128 (constant (F := Ideal) S_ .f32 0x00000000#32))
      (broadcastInDim S600000x1 ![0] bcast_S600000_S600000x1_0 (dstIds ei))
      (Host.gather gather_S50000x128_S600000x1_S600000x128_1_0_n_n_0_1_1128 x
        (broadcastInDim S600000x1 ![0] bcast_S600000_S600000x1_0
          (select (cmpi .slt (srcIds ei) (broadcastInDim S600000 ![] bcast_S_S600000 (constantI S_ 32 0#32)))
            (addi (srcIds ei) (broadcastInDim S600000 ![] bcast_S_S600000 (constantI S_ 32 50000#32)))
            (srcIds ei)))))
    (broadcastInDim S50000x128 ![0, 1] bcast_S50000x1_S50000x128_0_1
      (broadcastInDim S50000x1 ![0] bcast_S50000_S50000x1_0
        (maximumf
          (Host.scatterAdd scatter_S50000_S600000x1_S600000_n_0_0_1
            (broadcastInDim S50000 ![] bcast_S_S50000 (constant (F := Ideal) S_ .f32 0x00000000#32))
            (broadcastInDim S600000x1 ![0] bcast_S600000_S600000x1_0 (dstIds ei))
            (broadcastInDim S600000 ![] bcast_S_S600000 (constant (F := Ideal) S_ .f32 0x3F800000#32)))
          (broadcastInDim S50000 ![] bcast_S_S50000 (constant (F := Ideal) S_ .f32 0x3F800000#32)))))

/-- The weights with their last two axes exchanged. -/
def wT (W : FVec Ideal S3x128x128 .f32) : FVec Ideal S3x128x128 .f32 :=
  transpose S3x128x128 [0, 2, 1] W transposes_S3x128x128_S3x128x128_0_2_1

/-- Layer 0's slice of the exchanged weights, as a matrix. -/
def w0 (W : FVec Ideal S3x128x128 .f32) : FVec Ideal S128x128 .f32 :=
  shapeCast S128x128 (extractStridedSlice S1x128x128 ![0, 0, 0] (wT W) slices_S3x128x128_S1x128x128_0_0_0) shapeCasts_S1x128x128_S128x128
/-- Layer 1's slice. -/
def w1 (W : FVec Ideal S3x128x128 .f32) : FVec Ideal S128x128 .f32 :=
  shapeCast S128x128 (extractStridedSlice S1x128x128 ![1, 0, 0] (wT W) slices_S3x128x128_S1x128x128_1_0_0) shapeCasts_S1x128x128_S128x128
/-- Layer 2's slice. -/
def w2 (W : FVec Ideal S3x128x128 .f32) : FVec Ideal S128x128 .f32 :=
  shapeCast S128x128 (extractStridedSlice S1x128x128 ![2, 0, 0] (wT W) slices_S3x128x128_S1x128x128_2_0_0) shapeCasts_S1x128x128_S128x128

/-- The biases with a unit middle axis. -/
def bR (B : FVec Ideal S3x128 .f32) : FVec Ideal S3x1x128 .f32 := shapeCast S3x1x128 B shapeCasts_S3x128_S3x1x128
/-- Layer 0's bias row. -/
def b0 (B : FVec Ideal S3x128 .f32) : FVec Ideal S1x128 .f32 :=
  shapeCast S1x128 (extractStridedSlice S1x1x128 ![0, 0, 0] (bR B) slices_S3x1x128_S1x1x128_0_0_0) shapeCasts_S1x1x128_S1x128
/-- Layer 1's bias row. -/
def b1 (B : FVec Ideal S3x128 .f32) : FVec Ideal S1x128 .f32 :=
  shapeCast S1x128 (extractStridedSlice S1x1x128 ![1, 0, 0] (bR B) slices_S3x1x128_S1x1x128_1_0_0) shapeCasts_S1x1x128_S1x128
/-- Layer 2's bias row. -/
def b2 (B : FVec Ideal S3x128 .f32) : FVec Ideal S1x128 .f32 :=
  shapeCast S1x128 (extractStridedSlice S1x1x128 ![2, 0, 0] (bR B) slices_S3x1x128_S1x1x128_2_0_0) shapeCasts_S1x1x128_S1x128

/-- The features after layer 0. -/
def X1 (a0 : FVec Ideal S50000x128 .f32) (a2 : IVec S2x600000 32) (a4 : FVec Ideal S3x128x128 .f32) (a5 : FVec Ideal S3x128 .f32)
    (a6 : FVec Ideal S3x128x128 .f32) : FVec Ideal S50000x128 .f32 :=
  Spec.layer (agg a0 a2) a0 (w0 a4) (b0 a5) (w0 a6)
/-- The features after layer 1. -/
def X2 (a0 : FVec Ideal S50000x128 .f32) (a2 : IVec S2x600000 32) (a4 : FVec Ideal S3x128x128 .f32) (a5 : FVec Ideal S3x128 .f32)
    (a6 : FVec Ideal S3x128x128 .f32) : FVec Ideal S50000x128 .f32 :=
  Spec.layer (agg (X1 a0 a2 a4 a5 a6) a2) (X1 a0 a2 a4 a5 a6) (w1 a4) (b1 a5) (w1 a6)
/-- The features after layer 2. -/
def X3 (a0 : FVec Ideal S50000x128 .f32) (a2 : IVec S2x600000 32) (a4 : FVec Ideal S3x128x128 .f32) (a5 : FVec Ideal S3x128 .f32)
    (a6 : FVec Ideal S3x128x128 .f32) : FVec Ideal S50000x128 .f32 :=
  Spec.layer (agg (X2 a0 a2 a4 a5 a6) a2) (X2 a0 a2 a4 a5 a6) (w2 a4) (b2 a5) (w2 a6)

/-- The per-graph sums of the node features. -/
def pool (x : FVec Ideal S50000x128 .f32) (batch : IVec S50000 32) : FVec Ideal S500x128 .f32 :=
  Host.scatterAdd scatter_S500x128_S50000x1_S50000x128_1_0_0_1
    (broadcastInDim S500x128 ![] bcast_S_S500x128 (constant (F := Ideal) S_ .f32 0x00000000#32))
    (broadcastInDim S50000x1 ![0] bcast_S50000_S50000x1_0 batch) x

/-- The head's first weight, transposed. -/
def hW1 (a7 : FVec Ideal S128x128 .f32) : FVec Ideal S128x128 .f32 := transpose S128x128 [1, 0] a7 transposes_S128x128_S128x128_1_0
/-- The head's second weight, transposed. -/
def hW2 (a9 : FVec Ideal S10x128 .f32) : FVec Ideal S128x10 .f32 := transpose S128x10 [1, 0] a9 transposes_S10x128_S128x10_1_0
/-- The head's first bias as a row. -/
def hB1 (a8 : FVec Ideal S128 .f32) : FVec Ideal S1x128 .f32 := shapeCast S1x128 a8 shapeCasts_S128_S1x128
/-- The head's second bias as a row. -/
def hB2 (a10 : FVec Ideal S10 .f32) : FVec Ideal S1x10 .f32 := shapeCast S1x10 a10 shapeCasts_S10_S1x10

/-- The network's result: the head on each pooled row of the last layer's features. -/
def OUT (a0 : FVec Ideal S50000x128 .f32) (a2 : IVec S2x600000 32) (a3 : IVec S50000 32) (a4 : FVec Ideal S3x128x128 .f32)
    (a5 : FVec Ideal S3x128 .f32) (a6 : FVec Ideal S3x128x128 .f32) (a7 : FVec Ideal S128x128 .f32) (a8 : FVec Ideal S128 .f32)
    (a9 : FVec Ideal S10x128 .f32) (a10 : FVec Ideal S10 .f32) : FVec Ideal S500x10 .f32 :=
  fun i => Spec.headRow (fun k => pool (X3 a0 a2 a4 a5 a6) a3 (ix2 (i 0) k)) (hW1 a7) (hB1 a8) (hW2 a9) (hB2 a10) (i 1)

end Cert.Shared

end
-- ==== Proof.KHost.lean ====
/-
  The host stretches of the idealized kernel's @main, read: what each region finds in its operand arrays, as the shared
  functions (the mean aggregation, the layer's weight and bias slices, the pooled and padded rows, the head's weights) of
  the argument arrays and of the previous region's result. A buffer no operation of a stretch writes, and no region's
  write-back touches, is carried unchanged from the stretch that wrote it.
-/
import proofs.«107780_j45122926412013_1_alg».proof.Proof.Gen.KernelIdeal.Frame
import proofs.«107780_j45122926412013_1_alg».proof.Proof.Shared
import Idealize.ShloMosaic.Lib.StableHlo.Run

set_option maxRecDepth 16384

noncomputable section

namespace Cert.KernelIdeal.KHost

open Cert.KernelIdeal Cert.KernelIdeal.Gen Cert.Shared
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Before region 0 -/

theorem e0_0 (c : Dev nD) : (V1 m ρ c main_v25 : S50000x128.Idx → EReal) = agg (m ((c : Thread nD τ).loc main_arg0)) (m ((c : Thread nD τ).loc main_arg2)) := by
  dsimp only [V1, W1, W0, hostOps0]; after_results_simp <;> rfl
theorem e0_1 (c : Dev nD) : (V1 m ρ c main_arg0 : S50000x128.Idx → EReal) = m ((c : Thread nD τ).loc main_arg0) := by
  dsimp only [V1, W1, W0, hostOps0]; after_results_simp <;> rfl
theorem e0_2 (c : Dev nD) : (V1 m ρ c main_v27 : S128x128.Idx → EReal) = w0 (m ((c : Thread nD τ).loc main_arg4)) := by
  dsimp only [V1, W1, W0, hostOps0]; after_results_simp <;> rfl
theorem e0_3 (c : Dev nD) : (V1 m ρ c main_v29 : S1x128.Idx → EReal) = b0 (m ((c : Thread nD τ).loc main_arg5)) := by
  dsimp only [V1, W1, W0, hostOps0]; after_results_simp <;> rfl
theorem e0_4 (c : Dev nD) : (V1 m ρ c main_v31 : S128x128.Idx → EReal) = w0 (m ((c : Thread nD τ).loc main_arg6)) := by
  dsimp only [V1, W1, W0, hostOps0]; after_results_simp <;> rfl

/-! ### What the first stretch computes once and the later stretches read again -/

theorem k1_v1 (c : Dev nD) : (W1 m ρ c (Proc.devRef .tc main_v1) : S600000.Idx → BitVec 32) = srcIds (m ((c : Thread nD τ).loc main_arg2)) := by
  dsimp only [W1, W0, hostOps0]; after_results_simp <;> rfl
theorem k1_v3 (c : Dev nD) : (W1 m ρ c (Proc.devRef .tc main_v3) : S600000.Idx → BitVec 32) = dstIds (m ((c : Thread nD τ).loc main_arg2)) := by
  dsimp only [W1, W0, hostOps0]; after_results_simp <;> rfl
theorem k1_v4 (c : Dev nD) : (W1 m ρ c (Proc.devRef .tc main_v4) : S600000.Idx → EReal)
    = broadcastInDim S600000 ![] bcast_S_S600000 (constant (F := Ideal) S_ .f32 0x3F800000#32) := by
  dsimp only [W1, W0, hostOps0]; after_results_simp <;> rfl
theorem k1_v5 (c : Dev nD) : (W1 m ρ c (Proc.devRef .tc main_v5) : S3x128x128.Idx → EReal) = wT (m ((c : Thread nD τ).loc main_arg4)) := by
  dsimp only [W1, W0, hostOps0]; after_results_simp <;> rfl
theorem k1_v6 (c : Dev nD) : (W1 m ρ c (Proc.devRef .tc main_v6) : S3x128x128.Idx → EReal) = wT (m ((c : Thread nD τ).loc main_arg6)) := by
  dsimp only [W1, W0, hostOps0]; after_results_simp <;> rfl
theorem k1_v7 (c : Dev nD) : (W1 m ρ c (Proc.devRef .tc main_v7) : S3x1x128.Idx → EReal) = bR (m ((c : Thread nD τ).loc main_arg5)) := by
  dsimp only [W1, W0, hostOps0]; after_results_simp <;> rfl

/-! ### Carried through region 0, the second stretch and region 1 -/

theorem k2_v1 (c : Dev nD) : (W2 m ρ c (Proc.devRef .tc main_v1) : S600000.Idx → BitVec 32) = srcIds (m ((c : Thread nD τ).loc main_arg2)) :=
  (W2_of_ne m ρ c main_v1 (by decide)).trans (k1_v1 m ρ c)
theorem k2_v3 (c : Dev nD) : (W2 m ρ c (Proc.devRef .tc main_v3) : S600000.Idx → BitVec 32) = dstIds (m ((c : Thread nD τ).loc main_arg2)) :=
  (W2_of_ne m ρ c main_v3 (by decide)).trans (k1_v3 m ρ c)
theorem k2_v4 (c : Dev nD) : (W2 m ρ c (Proc.devRef .tc main_v4) : S600000.Idx → EReal)
    = broadcastInDim S600000 ![] bcast_S_S600000 (constant (F := Ideal) S_ .f32 0x3F800000#32) :=
  (W2_of_ne m ρ c main_v4 (by decide)).trans (k1_v4 m ρ c)
theorem k2_v5 (c : Dev nD) : (W2 m ρ c (Proc.devRef .tc main_v5) : S3x128x128.Idx → EReal) = wT (m ((c : Thread nD τ).loc main_arg4)) :=
  (W2_of_ne m ρ c main_v5 (by decide)).trans (k1_v5 m ρ c)
theorem k2_v6 (c : Dev nD) : (W2 m ρ c (Proc.devRef .tc main_v6) : S3x128x128.Idx → EReal) = wT (m ((c : Thread nD τ).loc main_arg6)) :=
  (W2_of_ne m ρ c main_v6 (by decide)).trans (k1_v6 m ρ c)
theorem k2_v7 (c : Dev nD) : (W2 m ρ c (Proc.devRef .tc main_v7) : S3x1x128.Idx → EReal) = bR (m ((c : Thread nD τ).loc main_arg5)) :=
  (W2_of_ne m ρ c main_v7 (by decide)).trans (k1_v7 m ρ c)

/-! ## Before region 1 -/

theorem e1_0 (c : Dev nD) : (V3 m ρ c main_v50 : S50000x128.Idx → EReal) = agg (V2 m ρ c main_v32) (m ((c : Thread nD τ).loc main_arg2)) := by
  dsimp only [V3, W3, hostOps1]
  after_results_simp
  rw [k2_v1, k2_v3, k2_v4]
  rfl
theorem e1_1 (c : Dev nD) : (V3 m ρ c main_v32 : S50000x128.Idx → EReal) = V2 m ρ c main_v32 := by
  dsimp only [V3, W3, hostOps1]; after_results_simp <;> rfl
theorem e1_2 (c : Dev nD) : (V3 m ρ c main_v52 : S128x128.Idx → EReal) = w1 (m ((c : Thread nD τ).loc main_arg4)) := by
  dsimp only [V3, W3, hostOps1]; after_results_simp; rw [k2_v5]; rfl
theorem e1_3 (c : Dev nD) : (V3 m ρ c main_v54 : S1x128.Idx → EReal) = b1 (m ((c : Thread nD τ).loc main_arg5)) := by
  dsimp only [V3, W3, hostOps1]; after_results_simp; rw [k2_v7]; rfl
theorem e1_4 (c : Dev nD) : (V3 m ρ c main_v56 : S128x128.Idx → EReal) = w1 (m ((c : Thread nD τ).loc main_arg6)) := by
  dsimp only [V3, W3, hostOps1]; after_results_simp; rw [k2_v6]; rfl

theorem k3_v1 (c : Dev nD) : (W3 m ρ c (Proc.devRef .tc main_v1) : S600000.Idx → BitVec 32) = srcIds (m ((c : Thread nD τ).loc main_arg2)) := by
  dsimp only [W3, hostOps1]; after_results_simp; exact k2_v1 m ρ c
theorem k3_v3 (c : Dev nD) : (W3 m ρ c (Proc.devRef .tc main_v3) : S600000.Idx → BitVec 32) = dstIds (m ((c : Thread nD τ).loc main_arg2)) := by
  dsimp only [W3, hostOps1]; after_results_simp; exact k2_v3 m ρ c
theorem k3_v4 (c : Dev nD) : (W3 m ρ c (Proc.devRef .tc main_v4) : S600000.Idx → EReal)
    = broadcastInDim S600000 ![] bcast_S_S600000 (constant (F := Ideal) S_ .f32 0x3F800000#32) := by
  dsimp only [W3, hostOps1]; after_results_simp; exact k2_v4 m ρ c
theorem k3_v5 (c : Dev nD) : (W3 m ρ c (Proc.devRef .tc main_v5) : S3x128x128.Idx → EReal) = wT (m ((c : Thread nD τ).loc main_arg4)) := by
  dsimp only [W3, hostOps1]; after_results_simp; exact k2_v5 m ρ c
theorem k3_v6 (c : Dev nD) : (W3 m ρ c (Proc.devRef .tc main_v6) : S3x128x128.Idx → EReal) = wT (m ((c : Thread nD τ).loc main_arg6)) := by
  dsimp only [W3, hostOps1]; after_results_simp; exact k2_v6 m ρ c
theorem k3_v7 (c : Dev nD) : (W3 m ρ c (Proc.devRef .tc main_v7) : S3x1x128.Idx → EReal) = bR (m ((c : Thread nD τ).loc main_arg5)) := by
  dsimp only [W3, hostOps1]; after_results_simp; exact k2_v7 m ρ c

theorem k4_v1 (c : Dev nD) : (W4 m ρ c (Proc.devRef .tc main_v1) : S600000.Idx → BitVec 32) = srcIds (m ((c : Thread nD τ).loc main_arg2)) :=
  (W4_of_ne m ρ c main_v1 (by decide)).trans (k3_v1 m ρ c)
theorem k4_v3 (c : Dev nD) : (W4 m ρ c (Proc.devRef .tc main_v3) : S600000.Idx → BitVec 32) = dstIds (m ((c : Thread nD τ).loc main_arg2)) :=
  (W4_of_ne m ρ c main_v3 (by decide)).trans (k3_v3 m ρ c)
theorem k4_v4 (c : Dev nD) : (W4 m ρ c (Proc.devRef .tc main_v4) : S600000.Idx → EReal)
    = broadcastInDim S600000 ![] bcast_S_S600000 (constant (F := Ideal) S_ .f32 0x3F800000#32) :=
  (W4_of_ne m ρ c main_v4 (by decide)).trans (k3_v4 m ρ c)
theorem k4_v5 (c : Dev nD) : (W4 m ρ c (Proc.devRef .tc main_v5) : S3x128x128.Idx → EReal) = wT (m ((c : Thread nD τ).loc main_arg4)) :=
  (W4_of_ne m ρ c main_v5 (by decide)).trans (k3_v5 m ρ c)
theorem k4_v6 (c : Dev nD) : (W4 m ρ c (Proc.devRef .tc main_v6) : S3x128x128.Idx → EReal) = wT (m ((c : Thread nD τ).loc main_arg6)) :=
  (W4_of_ne m ρ c main_v6 (by decide)).trans (k3_v6 m ρ c)
theorem k4_v7 (c : Dev nD) : (W4 m ρ c (Proc.devRef .tc main_v7) : S3x1x128.Idx → EReal) = bR (m ((c : Thread nD τ).loc main_arg5)) :=
  (W4_of_ne m ρ c main_v7 (by decide)).trans (k3_v7 m ρ c)

/-! ## Before region 2 -/

theorem e2_0 (c : Dev nD) : (V5 m ρ c main_v75 : S50000x128.Idx → EReal) = agg (V4 m ρ c main_v57) (m ((c : Thread nD τ).loc main_arg2)) := by
  dsimp only [V5, W5, hostOps2]
  after_results_simp
  rw [k4_v1, k4_v3, k4_v4]
  rfl
theorem e2_1 (c : Dev nD) : (V5 m ρ c main_v57 : S50000x128.Idx → EReal) = V4 m ρ c main_v57 := by
  dsimp only [V5, W5, hostOps2]; after_results_simp <;> rfl
theorem e2_2 (c : Dev nD) : (V5 m ρ c main_v77 : S128x128.Idx → EReal) = w2 (m ((c : Thread nD τ).loc main_arg4)) := by
  dsimp only [V5, W5, hostOps2]; after_results_simp; rw [k4_v5]; rfl
theorem e2_3 (c : Dev nD) : (V5 m ρ c main_v79 : S1x128.Idx → EReal) = b2 (m ((c : Thread nD τ).loc main_arg5)) := by
  dsimp only [V5, W5, hostOps2]; after_results_simp; rw [k4_v7]; rfl
theorem e2_4 (c : Dev nD) : (V5 m ρ c main_v81 : S128x128.Idx → EReal) = w2 (m ((c : Thread nD τ).loc main_arg6)) := by
  dsimp only [V5, W5, hostOps2]; after_results_simp; rw [k4_v6]; rfl

/-! ## Before region 3 -/

/-- The arguments the last stretches read are still as launched when region 2 has finished. -/
theorem arg3_at6 (c : Dev nD) : (W6 m ρ c (Proc.devRef .tc main_arg3) : S50000.Idx → BitVec 32) = m ((c : Thread nD τ).loc main_arg3) := by
  rw [W6_of_ne m ρ c main_arg3 (by decide)]
  dsimp only [W5, hostOps2]; after_results_simp
  rw [W4_of_ne m ρ c main_arg3 (by decide)]
  dsimp only [W3, hostOps1]; after_results_simp
  rw [W2_of_ne m ρ c main_arg3 (by decide)]
  dsimp only [W1, W0, hostOps0]; after_results_simp <;> rfl
theorem arg7_at6 (c : Dev nD) : (W6 m ρ c (Proc.devRef .tc main_arg7) : S128x128.Idx → EReal) = m ((c : Thread nD τ).loc main_arg7) := by
  rw [W6_of_ne m ρ c main_arg7 (by decide)]
  dsimp only [W5, hostOps2]; after_results_simp
  rw [W4_of_ne m ρ c main_arg7 (by decide)]
  dsimp only [W3, hostOps1]; after_results_simp
  rw [W2_of_ne m ρ c main_arg7 (by decide)]
  dsimp only [W1, W0, hostOps0]; after_results_simp <;> rfl
theorem arg8_at6 (c : Dev nD) : (W6 m ρ c (Proc.devRef .tc main_arg8) : S128.Idx → EReal) = m ((c : Thread nD τ).loc main_arg8) := by
  rw [W6_of_ne m ρ c main_arg8 (by decide)]
  dsimp only [W5, hostOps2]; after_results_simp
  rw [W4_of_ne m ρ c main_arg8 (by decide)]
  dsimp only [W3, hostOps1]; after_results_simp
  rw [W2_of_ne m ρ c main_arg8 (by decide)]
  dsimp only [W1, W0, hostOps0]; after_results_simp <;> rfl
theorem arg9_at6 (c : Dev nD) : (W6 m ρ c (Proc.devRef .tc main_arg9) : S10x128.Idx → EReal) = m ((c : Thread nD τ).loc main_arg9) := by
  rw [W6_of_ne m ρ c main_arg9 (by decide)]
  dsimp only [W5, hostOps2]; after_results_simp
  rw [W4_of_ne m ρ c main_arg9 (by decide)]
  dsimp only [W3, hostOps1]; after_results_simp
  rw [W2_of_ne m ρ c main_arg9 (by decide)]
  dsimp only [W1, W0, hostOps0]; after_results_simp <;> rfl
theorem arg10_at6 (c : Dev nD) : (W6 m ρ c (Proc.devRef .tc main_arg10) : S10.Idx → EReal) = m ((c : Thread nD τ).loc main_arg10) := by
  rw [W6_of_ne m ρ c main_arg10 (by decide)]
  dsimp only [W5, hostOps2]; after_results_simp
  rw [W4_of_ne m ρ c main_arg10 (by decide)]
  dsimp only [W3, hostOps1]; after_results_simp
  rw [W2_of_ne m ρ c main_arg10 (by decide)]
  dsimp only [W1, W0, hostOps0]; after_results_simp <;> rfl

/-- The pooled rows padded with twelve rows of the converted integer zero. -/
def padded (g : FVec Ideal S500x128 .f32) : FVec Ideal S512x128 .f32 :=
  pad S512x128 ![0, 0] ![12, 0] ![0, 0] g (sitofp (F := Ideal) .f32 (constantI S_ 32 0#32)) pads_S500x128_S512x128_0120_000 h_S_

theorem e3_0 (c : Dev nD) : (V9 m ρ c main_v86 : S512x128.Idx → EReal) = padded (pool (V6 m ρ c main_v82) (m ((c : Thread nD τ).loc main_arg3))) := by
  dsimp only [V9, W9, W8, W7, hostOps3_2, hostOps3_1, hostOps3]
  after_results_simp
  rw [arg3_at6]
  rfl
theorem e3_1 (c : Dev nD) : (V9 m ρ c main_v87 : S128x128.Idx → EReal) = hW1 (m ((c : Thread nD τ).loc main_arg7)) := by
  dsimp only [V9, W9, W8, W7, hostOps3_2, hostOps3_1, hostOps3]
  after_results_simp
  rw [arg7_at6]
  rfl
theorem e3_2 (c : Dev nD) : (V9 m ρ c main_v89 : S1x128.Idx → EReal) = hB1 (m ((c : Thread nD τ).loc main_arg8)) := by
  dsimp only [V9, W9, W8, W7, hostOps3_2, hostOps3_1, hostOps3]
  after_results_simp
  rw [arg8_at6]
  rfl
theorem e3_3 (c : Dev nD) : (V9 m ρ c main_v88 : S128x10.Idx → EReal) = hW2 (m ((c : Thread nD τ).loc main_arg9)) := by
  dsimp only [V9, W9, W8, W7, hostOps3_2, hostOps3_1, hostOps3]
  after_results_simp
  rw [arg9_at6]
  rfl
theorem e3_4 (c : Dev nD) : (V9 m ρ c main_v90 : S1x10.Idx → EReal) = hB2 (m ((c : Thread nD τ).loc main_arg10)) := by
  dsimp only [V9, W9, W8, W7, hostOps3_2, hostOps3_1, hostOps3]
  after_results_simp
  rw [arg10_at6]
  rfl

/-! ## After region 3 -/

theorem e4 (c : Dev nD) : (W11 m ρ c (Proc.devRef .tc main_v92) : S500x10.Idx → EReal)
    = extractStridedSlice S500x10 ![0, 0] (V10 m ρ c main_v91) slices_S512x10_S500x10_0_0 := by
  dsimp only [W11, hostOps4]; after_results_simp <;> rfl

end Cert.KernelIdeal.KHost

end
-- ==== Proof.KLayer0.lean ====
/-
  Region 0 (one SAGE layer's dense part, ten row blocks of 5000 nodes): the array its write-backs leave is the layer's
  function of the arrays the region finds. Block `t` holds rows `5000·t … 5000·t + 4999`; the weight and bias windows are
  the whole arrays at every point; the ten output blocks tile the 50000 rows.
-/
import proofs.«107780_j45122926412013_1_alg».proof.Proof.Gen.KernelIdeal.Frame
import proofs.«107780_j45122926412013_1_alg».proof.Proof.Spec
import Idealize.ShloMosaic.Lib.Pipeline.Value
import Idealize.ShloMosaic.Lib.ValueIdx

set_option maxRecDepth 16384

noncomputable section

namespace Cert.KernelIdeal.KLayer0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body at block row `r`, column `q`, when its row blocks are rows `ρ r` of `mean` and `x`: the layer there. -/
theorem block_eq
    (hbody : ∀ (x0 x1 : Vec Ideal S5000x128 .f32) (x2 : Vec Ideal S128x128 .f32) (x3 : Vec Ideal S1x128 .f32) (x4 : Vec Ideal S128x128 .f32)
      (r : Fin 5000) (q : Fin 128), out0_5 (F := Ideal) x0 x1 x2 x3 x4 (ix2 r q)
        = max (((∑ k : Fin 128, x0 (ix2 r k) * x2 (ix2 k q)) + (∑ k : Fin 128, x1 (ix2 r k) * x4 (ix2 k q))) + x3 (ix2 (0 : Fin 1) q)) Cert.Spec.Z)
    (mean x : FVec Ideal S50000x128 .f32) (wl : FVec Ideal S128x128 .f32) (b : FVec Ideal S1x128 .f32) (wr : FVec Ideal S128x128 .f32)
    (x0 x1 : Vec Ideal S5000x128 .f32) (x2 : Vec Ideal S128x128 .f32) (x3 : Vec Ideal S1x128 .f32) (x4 : Vec Ideal S128x128 .f32)
    (ρ : Fin 5000 → Fin 50000)
    (h0 : ∀ r k, x0 (ix2 r k) = mean (ix2 (ρ r) k)) (h1 : ∀ r k, x1 (ix2 r k) = x (ix2 (ρ r) k))
    (h2 : x2 = wl) (h3 : x3 = b) (h4 : x4 = wr) (r : Fin 5000) (q : Fin 128) :
    out0_5 (F := Ideal) x0 x1 x2 x3 x4 (ix2 r q) = Cert.Spec.layerAt mean x wl b wr (ρ r) q := by
  rw [hbody]
  subst h2 h3 h4
  unfold Cert.Spec.layerAt
  simp only [h0, h1]

/-- The printed index maps at every grid point: the row windows move with the point, the others stay at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 10 :=
  (by decide +kernel : ∀ t : Fin grid0.N, _)

/-- Row `r` of point `t`'s block is row `5000·t + r` of the array. -/
def rowOf (t : Fin cfg0.N) (r : Fin 5000) : Fin 50000 :=
  ⟨t.val * 5000 + r.val, by have := (idx_facts t).2.2.2.2.2.2.2.2.2.2.2.2; have := r.isLt; omega⟩

theorem iblk_0 (c : Dev nD) (t : Fin cfg0.N) (r : Fin 5000) (k : Fin 128) :
    iblk0 V c 0 t (ix2 r k) = V c main_v25 (ix2 (rowOf t r) k) := by
  obtain ⟨e0, e1, -⟩ := idx_facts t
  show V c main_v25 (((cfg0.win 0).blk t).view.emb (ix2 r k)) = V c main_v25 (ix2 (rowOf t r) k)
  refine congrArg _ (funext fun a => Fin.ext ?_)
  match a with
  | ⟨0, _⟩ => show win0_0.index t (0 : Fin 2) * 5000 + 1 * r.val = t.val * 5000 + r.val; omega
  | ⟨1, _⟩ => show win0_0.index t (1 : Fin 2) * 128 + 1 * k.val = k.val; omega

theorem iblk_1 (c : Dev nD) (t : Fin cfg0.N) (r : Fin 5000) (k : Fin 128) :
    iblk0 V c 1 t (ix2 r k) = V c main_arg0 (ix2 (rowOf t r) k) := by
  obtain ⟨-, -, e0, e1, -⟩ := idx_facts t
  show V c main_arg0 (((cfg0.win 1).blk t).view.emb (ix2 r k)) = V c main_arg0 (ix2 (rowOf t r) k)
  refine congrArg _ (funext fun a => Fin.ext ?_)
  match a with
  | ⟨0, _⟩ => show win0_1.index t (0 : Fin 2) * 5000 + 1 * r.val = t.val * 5000 + r.val; omega
  | ⟨1, _⟩ => show win0_1.index t (1 : Fin 2) * 128 + 1 * k.val = k.val; omega

theorem iblk_2 (c : Dev nD) (t : Fin cfg0.N) : iblk0 V c 2 t = V c main_v27 := by
  obtain ⟨-, -, -, -, e0, e1, -⟩ := idx_facts t
  funext y
  show V c main_v27 (((cfg0.win 2).blk t).view.emb y) = V c main_v27 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem iblk_3 (c : Dev nD) (t : Fin cfg0.N) : iblk0 V c 3 t = V c main_v29 := by
  obtain ⟨-, -, -, -, -, -, e0, e1, -⟩ := idx_facts t
  funext y
  show V c main_v29 (((cfg0.win 3).blk t).view.emb y) = V c main_v29 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem iblk_4 (c : Dev nD) (t : Fin cfg0.N) : iblk0 V c 4 t = V c main_v31 := by
  obtain ⟨-, -, -, -, -, -, -, -, e0, e1, -⟩ := idx_facts t
  funext y
  show V c main_v31 (((cfg0.win 4).blk t).view.emb y) = V c main_v31 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The layer of the arrays the region finds. -/
abbrev G (c : Dev nD) : FVec Ideal S50000x128 .f32 :=
  Cert.Spec.layer (V c main_v25) (V c main_arg0) (V c main_v27) (V c main_v29) (V c main_v31)

/-- What point `t` writes back is block `t` of the layer. -/
theorem flushed_eq
    (hbody : ∀ (x0 x1 : Vec Ideal S5000x128 .f32) (x2 : Vec Ideal S128x128 .f32) (x3 : Vec Ideal S1x128 .f32) (x4 : Vec Ideal S128x128 .f32)
      (r : Fin 5000) (q : Fin 128), out0_5 (F := Ideal) x0 x1 x2 x3 x4 (ix2 r q)
        = max (((∑ k : Fin 128, x0 (ix2 r k) * x2 (ix2 k q)) + (∑ k : Fin 128, x1 (ix2 r k) * x4 (ix2 k q))) + x3 (ix2 (0 : Fin 1) q)) Cert.Spec.Z)
    (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  funext (j : S5000x128.Idx)
  obtain ⟨r, q, rfl⟩ : ∃ (r : Fin 5000) (q : Fin 128), j = ix2 r q := ⟨j 0, j 1, eq_ix2 j⟩
  show out0_5 (F := Ideal) (iblk0 V c 0 t) (iblk0 V c 1 t) (iblk0 V c 2 t) (iblk0 V c 3 t) (iblk0 V c 4 t) (ix2 r q)
      = G V c (((cfg0.win 5).blk t).view.emb (ix2 r q))
  have hemb : ((cfg0.win 5).blk t).view.emb (ix2 r q) = ix2 (rowOf t r) q := by
    obtain ⟨-, -, -, -, -, -, -, -, -, -, e0, e1, -⟩ := idx_facts t
    refine funext fun a => Fin.ext ?_
    match a with
    | ⟨0, _⟩ => show win0_5.index t (0 : Fin 2) * 5000 + 1 * r.val = t.val * 5000 + r.val; omega
    | ⟨1, _⟩ => show win0_5.index t (1 : Fin 2) * 128 + 1 * q.val = q.val; omega
  rw [hemb]
  exact block_eq hbody (V c main_v25) (V c main_arg0) (V c main_v27) (V c main_v29) (V c main_v31)
    (iblk0 V c 0 t) (iblk0 V c 1 t) (iblk0 V c 2 t) (iblk0 V c 3 t) (iblk0 V c 4 t) (rowOf t)
    (iblk_0 V c t) (iblk_1 V c t) (iblk_2 V c t) (iblk_3 V c t) (iblk_4 V c t) r q

/-- An index of the array is in point `t`'s block iff each coordinate is in the block's range. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v32).slice (win0_5.rect t)).set ↔ _
  rw [View.set_slice_whole, Rect.mem_set_unit]
  exact Iff.rfl

/-- Every index is in the block of the point `row / 5000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_5 _, ?_⟩
  rw [mem_blk]
  obtain ⟨-, -, -, -, -, -, -, -, -, -, e0, e1, -⟩ := idx_facts ⟨(i 0).val / 5000, by rw [hN]; omega⟩
  intro a
  match a with
  | ⟨0, _⟩ => show win0_5.index _ (0 : Fin 2) * 5000 ≤ (i 0).val ∧ (i 0).val < win0_5.index _ (0 : Fin 2) * 5000 + 5000; rw [e0]; show (i 0).val / 5000 * 5000 ≤ (i 0).val ∧ (i 0).val < (i 0).val / 5000 * 5000 + 5000; omega
  | ⟨1, _⟩ => show win0_5.index _ (1 : Fin 2) * 128 ≤ (i 1).val ∧ (i 1).val < win0_5.index _ (1 : Fin 2) * 128 + 128; rw [e1]; omega

/-- The array after the region: the layer of the arrays it found. -/
theorem final
    (hbody : ∀ (x0 x1 : Vec Ideal S5000x128 .f32) (x2 : Vec Ideal S128x128 .f32) (x3 : Vec Ideal S1x128 .f32) (x4 : Vec Ideal S128x128 .f32)
      (r : Fin 5000) (q : Fin 128), out0_5 (F := Ideal) x0 x1 x2 x3 x4 (ix2 r q)
        = max (((∑ k : Fin 128, x0 (ix2 r k) * x2 (ix2 k q)) + (∑ k : Fin 128, x1 (ix2 r k) * x4 (ix2 k q))) + x3 (ix2 (0 : Fin 1) q)) Cert.Spec.Z)
    (c : Dev nD) : (dat0 V c).arrAt 5 cfg0.N = G V c :=
  (dat0 V c).arrAt_eq_of_cover 5 (G V c) (fun t _ => flushed_eq V hbody c t) cover

end Cert.KernelIdeal.KLayer0

end
-- ==== Proof.KLayer1.lean ====
/-
  Region 1 (one SAGE layer's dense part, ten row blocks of 5000 nodes): the array its write-backs leave is the layer's
  function of the arrays the region finds. Block `t` holds rows `5000·t … 5000·t + 4999`; the weight and bias windows are
  the whole arrays at every point; the ten output blocks tile the 50000 rows.
-/
import proofs.«107780_j45122926412013_1_alg».proof.Proof.Gen.KernelIdeal.Frame
import proofs.«107780_j45122926412013_1_alg».proof.Proof.Spec
import Idealize.ShloMosaic.Lib.Pipeline.Value
import Idealize.ShloMosaic.Lib.ValueIdx

set_option maxRecDepth 16384

noncomputable section

namespace Cert.KernelIdeal.KLayer1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body at block row `r`, column `q`, when its row blocks are rows `ρ r` of `mean` and `x`: the layer there. -/
theorem block_eq
    (hbody : ∀ (x0 x1 : Vec Ideal S5000x128 .f32) (x2 : Vec Ideal S128x128 .f32) (x3 : Vec Ideal S1x128 .f32) (x4 : Vec Ideal S128x128 .f32)
      (r : Fin 5000) (q : Fin 128), out1_5 (F := Ideal) x0 x1 x2 x3 x4 (ix2 r q)
        = max (((∑ k : Fin 128, x0 (ix2 r k) * x2 (ix2 k q)) + (∑ k : Fin 128, x1 (ix2 r k) * x4 (ix2 k q))) + x3 (ix2 (0 : Fin 1) q)) Cert.Spec.Z)
    (mean x : FVec Ideal S50000x128 .f32) (wl : FVec Ideal S128x128 .f32) (b : FVec Ideal S1x128 .f32) (wr : FVec Ideal S128x128 .f32)
    (x0 x1 : Vec Ideal S5000x128 .f32) (x2 : Vec Ideal S128x128 .f32) (x3 : Vec Ideal S1x128 .f32) (x4 : Vec Ideal S128x128 .f32)
    (ρ : Fin 5000 → Fin 50000)
    (h0 : ∀ r k, x0 (ix2 r k) = mean (ix2 (ρ r) k)) (h1 : ∀ r k, x1 (ix2 r k) = x (ix2 (ρ r) k))
    (h2 : x2 = wl) (h3 : x3 = b) (h4 : x4 = wr) (r : Fin 5000) (q : Fin 128) :
    out1_5 (F := Ideal) x0 x1 x2 x3 x4 (ix2 r q) = Cert.Spec.layerAt mean x wl b wr (ρ r) q := by
  rw [hbody]
  subst h2 h3 h4
  unfold Cert.Spec.layerAt
  simp only [h0, h1]

/-- The printed index maps at every grid point: the row windows move with the point, the others stay at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 10 :=
  (by decide +kernel : ∀ t : Fin grid1.N, _)

/-- Row `r` of point `t`'s block is row `5000·t + r` of the array. -/
def rowOf (t : Fin cfg1.N) (r : Fin 5000) : Fin 50000 :=
  ⟨t.val * 5000 + r.val, by have := (idx_facts t).2.2.2.2.2.2.2.2.2.2.2.2; have := r.isLt; omega⟩

theorem iblk_0 (c : Dev nD) (t : Fin cfg1.N) (r : Fin 5000) (k : Fin 128) :
    iblk1 V c 0 t (ix2 r k) = V c main_v50 (ix2 (rowOf t r) k) := by
  obtain ⟨e0, e1, -⟩ := idx_facts t
  show V c main_v50 (((cfg1.win 0).blk t).view.emb (ix2 r k)) = V c main_v50 (ix2 (rowOf t r) k)
  refine congrArg _ (funext fun a => Fin.ext ?_)
  match a with
  | ⟨0, _⟩ => show win1_0.index t (0 : Fin 2) * 5000 + 1 * r.val = t.val * 5000 + r.val; omega
  | ⟨1, _⟩ => show win1_0.index t (1 : Fin 2) * 128 + 1 * k.val = k.val; omega

theorem iblk_1 (c : Dev nD) (t : Fin cfg1.N) (r : Fin 5000) (k : Fin 128) :
    iblk1 V c 1 t (ix2 r k) = V c main_v32 (ix2 (rowOf t r) k) := by
  obtain ⟨-, -, e0, e1, -⟩ := idx_facts t
  show V c main_v32 (((cfg1.win 1).blk t).view.emb (ix2 r k)) = V c main_v32 (ix2 (rowOf t r) k)
  refine congrArg _ (funext fun a => Fin.ext ?_)
  match a with
  | ⟨0, _⟩ => show win1_1.index t (0 : Fin 2) * 5000 + 1 * r.val = t.val * 5000 + r.val; omega
  | ⟨1, _⟩ => show win1_1.index t (1 : Fin 2) * 128 + 1 * k.val = k.val; omega

theorem iblk_2 (c : Dev nD) (t : Fin cfg1.N) : iblk1 V c 2 t = V c main_v52 := by
  obtain ⟨-, -, -, -, e0, e1, -⟩ := idx_facts t
  funext y
  show V c main_v52 (((cfg1.win 2).blk t).view.emb y) = V c main_v52 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem iblk_3 (c : Dev nD) (t : Fin cfg1.N) : iblk1 V c 3 t = V c main_v54 := by
  obtain ⟨-, -, -, -, -, -, e0, e1, -⟩ := idx_facts t
  funext y
  show V c main_v54 (((cfg1.win 3).blk t).view.emb y) = V c main_v54 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

theorem iblk_4 (c : Dev nD) (t : Fin cfg1.N) : iblk1 V c 4 t = V c main_v56 := by
  obtain ⟨-, -, -, -, -, -, -, -, e0, e1, -⟩ := idx_facts t
  funext y
  show V c main_v56 (((cfg1.win 4).blk t).view.emb y) = V c main_v56 y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The layer of the arrays the region finds. -/
abbrev G (c : Dev nD) : FVec Ideal S50000x128 .f32 :=
  Cert.Spec.layer (V c main_v50) (V c main_v32) (V c main_v52) (V c main_v54) (V c main_v56)

/-- What point `t` writes back is block `t` of the layer. -/
theorem flushed_eq
    (hbody : ∀ (x0 x1 : Vec Ideal S5000x128 .f32) (x2 : Vec Ideal S128x128 .f32) (x3 : Vec Ideal S1x128 .f32) (x4 : Vec Ideal S128x128 .f32)
      (r : Fin 5000) (q : Fin 128), out1_5 (F := Ideal) x0 x1 x2 x3 x4 (ix2 r q)
        = max (((∑ k : Fin 128, x0 (ix2 r k) * x2 (ix2 k q)) + (∑ k : Fin 128, x1 (ix2 r k) * x4 (ix2 k q))) + x3 (ix2 (0 : Fin 1) q)) Cert.Spec.Z)
    (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  funext (j : S5000x128.Idx)
  obtain ⟨r, q, rfl⟩ : ∃ (r : Fin 5000) (q : Fin 128), j = ix2 r q := ⟨j 0, j 1, eq_ix2 j⟩
  show out1_5 (F := Ideal) (iblk1 V c 0 t) (iblk1 V c 1 t) (iblk1 V c 2 t) (iblk1 V c 3 t) (iblk1 V c 4 t) (ix2 r q)
      = G V c (((cfg1.win 5).blk t).view.emb (ix2 r q))
  have hemb : ((cfg1.win 5).blk t).view.emb (ix2 r q) = ix2 (rowOf t r) q := by
    obtain ⟨-, -, -, -, -, -, -, -, -, -, e0, e1, -⟩ := idx_facts t
    refine funext fun a => Fin.ext ?_
    match a with
    | ⟨0, _⟩ => show win1_5.index t (0 : Fin 2) * 5000 + 1 * r.val = t.val * 5000 + r.val; omega
    | ⟨1, _⟩ => show win1_5.index t (1 : Fin 2) * 128 + 1 * q.val = q.val; omega
  rw [hemb]
  exact block_eq hbody (V c main_v50) (V c main_v32) (V c main_v52) (V c main_v54) (V c main_v56)
    (iblk1 V c 0 t) (iblk1 V c 1 t) (iblk1 V c 2 t) (iblk1 V c 3 t) (iblk1 V c 4 t) (rowOf t)
    (iblk_0 V c t) (iblk_1 V c t) (iblk_2 V c t) (iblk_3 V c t) (iblk_4 V c t) r q

/-- An index of the array is in point `t`'s block iff each coordinate is in the block's range. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v57).slice (win1_5.rect t)).set ↔ _
  rw [View.set_slice_whole, Rect.mem_set_unit]
  exact Iff.rfl

/-- Every index is in the block of the point `row / 5000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_5 _, ?_⟩
  rw [mem_blk]
  obtain ⟨-, -, -, -, -, -, -, -, -, -, e0, e1, -⟩ := idx_facts ⟨(i 0).val / 5000, by rw [hN]; omega⟩
  intro a
  match a with
  | ⟨0, _⟩ => show win1_5.index _ (0 : Fin 2) * 5000 ≤ (i 0).val ∧ (i 0).val < win1_5.index _ (0 : Fin 2) * 5000 + 5000; rw [e0]; show (i 0).val / 5000 * 5000 ≤ (i 0).val ∧ (i 0).val < (i 0).val / 5000 * 5000 + 5000; omega
  | ⟨1, _⟩ => show win1_5.index _ (1 : Fin 2) * 128 ≤ (i 1).val ∧ (i 1).val < win1_5.index _ (1 : Fin 2) * 128 + 128; rw [e1]; omega

/-- The array after the region: the layer of the arrays it found. -/
theorem final
    (hbody : ∀ (x0 x1 : Vec Ideal S5000x128 .f32) (x2 : Vec Ideal S128x128 .f32) (x3 : Vec Ideal S1x128 .f32) (x4 : Vec Ideal S128x128 .f32)
      (r : Fin 5000) (q : Fin 128), out1_5 (F := Ideal) x0 x1 x2 x3 x4 (ix2 r q)
        = max (((∑ k : Fin 128, x0 (ix2 r k) * x2 (ix2 k q)) + (∑ k : Fin 128, x1 (ix2 r k) * x4 (ix2 k q))) + x3 (ix2 (0 : Fin 1) q)) Cert.Spec.Z)
    (c : Dev nD) : (dat1 V c).arrAt 5 cfg1.N = G V c :=
  (dat1 V c).arrAt_eq_of_cover 5 (G V c) (fun t _ => flushed_eq V hbody c t) cover

end Cert.KernelIdeal.KLayer1

end
-- ==== Proof.KLayer2.lean ====
/-
  Region 2 (one SAGE layer's dense part, ten row blocks of 5000 nodes): the array its write-backs leave is the layer's
  function of the arrays the region finds. Block `t` holds rows `5000·t … 5000·t + 4999`; the weight and bias windows are
  the whole arrays at every point; the ten output blocks tile the 50000 rows.
-/
import proofs.«107780_j45122926412013_1_alg».proof.Proof.Gen.KernelIdeal.Frame
import proofs.«107780_j45122926412013_1_alg».proof.Proof.Spec
import Idealize.ShloMosaic.Lib.Pipeline.Value
import Idealize.ShloMosaic.Lib.ValueIdx

set_option maxRecDepth 16384

noncomputable section

namespace Cert.KernelIdeal.KLayer2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body at block row `r`, column `q`, when its row blocks are rows `ρ r` of `mean` and `x`: the layer there. -/
theorem block_eq
    (hbody : ∀ (x0 x1 : Vec Ideal S5000x128 .f32) (x2 : Vec Ideal S128x128 .f32) (x3 : Vec Ideal S1x128 .f32) (x4 : Vec Ideal S128x128 .f32)
      (r : Fin 5000) (q : Fin 128), out2_5 (F := Ideal) x0 x1 x2 x3 x4 (ix2 r q)
        = max (((∑ k : Fin 128, x0 (ix2 r k) * x2 (ix2 k q)) + (∑ k : Fin 128, x1 (ix2 r k) * x4 (ix2 k q))) + x3 (ix2 (0 : Fin 1) q)) Cert.Spec.Z)
    (mean x : FVec Ideal S50000x128 .f32) (wl : FVec Ideal S128x128 .f32) (b : FVec Ideal S1x128 .f32) (wr : FVec Ideal S128x128 .f32)
    (x0 x1 : Vec Ideal S5000x128 .f32) (x2 : Vec Ideal S128x128 .f32) (x3 : Vec Ideal S1x128 .f32) (x4 : Vec Ideal S128x128 .f32)
    (ρ : Fin 5000 → Fin 50000)
    (h0 : ∀ r k, x0 (ix2 r k) = mean (ix2 (ρ r) k)) (h1 : ∀ r k, x1 (ix2 r k) = x (ix2 (ρ r) k))
    (h2 : x2 = wl) (h3 : x3 = b) (h4 : x4 = wr) (r : Fin 5000) (q : Fin 128) :
    out2_5 (F := Ideal) x0 x1 x2 x3 x4 (ix2 r q) = Cert.Spec.layerAt mean x wl b wr (ρ r) q := by
  rw [hbody]
  subst h2 h3 h4
  unfold Cert.Spec.layerAt
  simp only [h0, h1]

/-- The printed index maps at every grid point: the row windows move with the point, the others stay at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 10 :=
  (by decide +kernel : ∀ t : Fin grid2.N, _)

/-- Row `r` of point `t`'s block is row `5000·t + r` of the array. -/
def rowOf (t : Fin cfg2.N) (r : Fin 5000) : Fin 50000 :=
  ⟨t.val * 5000 + r.val, by have := (idx_facts t).2.2.2.2.2.2.2.2.2.2.2.2; have := r.isLt; omega⟩

theorem iblk_0 (c : Dev nD) (t : Fin cfg2.N) (r : Fin 5000) (k : Fin 128) :
    iblk2 V c 0 t (ix2 r k) = V c main_v75 (ix2 (rowOf t r) k) := by
  obtain ⟨e0, e1, -⟩ := idx_facts t
  show V c main_v75 (((cfg2.win 0).blk t).view.emb (ix2 r k)) = V c main_v75 (ix2 (rowOf t r) k)
  refine congrArg _ (funext fun a => Fin.ext ?_)
  match a with
  | ⟨0, _⟩ => show win2_0.index t (0 : Fin 2) * 5000 + 1 * r.val = t.val * 5000 + r.val; omega
  | ⟨1, _⟩ => show win2_0.index t (1 : Fin 2) * 128 + 1 * k.val = k.val; omega

theorem iblk_1 (c : Dev nD) (t : Fin cfg2.N) (r : Fin 5000) (k : Fin 128) :
    iblk2 V c 1 t (ix2 r k) = V c main_v57 (ix2 (rowOf t r) k) := by
  obtain ⟨-, -, e0, e1, -⟩ := idx_facts t
  show V c main_v57 (((cfg2.win 1).blk t).view.emb (ix2 r k)) = V c main_v57 (ix2 (rowOf t r) k)
  refine congrArg _ (funext fun a => Fin.ext ?_)
  match a with
  | ⟨0, _⟩ => show win2_1.index t (0 : Fin 2) * 5000 + 1 * r.val = t.val * 5000 + r.val; omega
  | ⟨1, _⟩ => show win2_1.index t (1 : Fin 2) * 128 + 1 * k.val = k.val; omega

theorem iblk_2 (c : Dev nD) (t : Fin cfg2.N) : iblk2 V c 2 t = V c main_v77 := by
  obtain ⟨-, -, -, -, e0, e1, -⟩ := idx_facts t
  funext y
  show V c main_v77 (((cfg2.win 2).blk t).view.emb y) = V c main_v77 y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

theorem iblk_3 (c : Dev nD) (t : Fin cfg2.N) : iblk2 V c 3 t = V c main_v79 := by
  obtain ⟨-, -, -, -, -, -, e0, e1, -⟩ := idx_facts t
  funext y
  show V c main_v79 (((cfg2.win 3).blk t).view.emb y) = V c main_v79 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

theorem iblk_4 (c : Dev nD) (t : Fin cfg2.N) : iblk2 V c 4 t = V c main_v81 := by
  obtain ⟨-, -, -, -, -, -, -, -, e0, e1, -⟩ := idx_facts t
  funext y
  show V c main_v81 (((cfg2.win 4).blk t).view.emb y) = V c main_v81 y
  refine congrArg _ (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- The layer of the arrays the region finds. -/
abbrev G (c : Dev nD) : FVec Ideal S50000x128 .f32 :=
  Cert.Spec.layer (V c main_v75) (V c main_v57) (V c main_v77) (V c main_v79) (V c main_v81)

/-- What point `t` writes back is block `t` of the layer. -/
theorem flushed_eq
    (hbody : ∀ (x0 x1 : Vec Ideal S5000x128 .f32) (x2 : Vec Ideal S128x128 .f32) (x3 : Vec Ideal S1x128 .f32) (x4 : Vec Ideal S128x128 .f32)
      (r : Fin 5000) (q : Fin 128), out2_5 (F := Ideal) x0 x1 x2 x3 x4 (ix2 r q)
        = max (((∑ k : Fin 128, x0 (ix2 r k) * x2 (ix2 k q)) + (∑ k : Fin 128, x1 (ix2 r k) * x4 (ix2 k q))) + x3 (ix2 (0 : Fin 1) q)) Cert.Spec.Z)
    (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  funext (j : S5000x128.Idx)
  obtain ⟨r, q, rfl⟩ : ∃ (r : Fin 5000) (q : Fin 128), j = ix2 r q := ⟨j 0, j 1, eq_ix2 j⟩
  show out2_5 (F := Ideal) (iblk2 V c 0 t) (iblk2 V c 1 t) (iblk2 V c 2 t) (iblk2 V c 3 t) (iblk2 V c 4 t) (ix2 r q)
      = G V c (((cfg2.win 5).blk t).view.emb (ix2 r q))
  have hemb : ((cfg2.win 5).blk t).view.emb (ix2 r q) = ix2 (rowOf t r) q := by
    obtain ⟨-, -, -, -, -, -, -, -, -, -, e0, e1, -⟩ := idx_facts t
    refine funext fun a => Fin.ext ?_
    match a with
    | ⟨0, _⟩ => show win2_5.index t (0 : Fin 2) * 5000 + 1 * r.val = t.val * 5000 + r.val; omega
    | ⟨1, _⟩ => show win2_5.index t (1 : Fin 2) * 128 + 1 * q.val = q.val; omega
  rw [hemb]
  exact block_eq hbody (V c main_v75) (V c main_v57) (V c main_v77) (V c main_v79) (V c main_v81)
    (iblk2 V c 0 t) (iblk2 V c 1 t) (iblk2 V c 2 t) (iblk2 V c 3 t) (iblk2 V c 4 t) (rowOf t)
    (iblk_0 V c t) (iblk_1 V c t) (iblk_2 V c t) (iblk_3 V c t) (iblk_4 V c t) r q

/-- An index of the array is in point `t`'s block iff each coordinate is in the block's range. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v82).slice (win2_5.rect t)).set ↔ _
  rw [View.set_slice_whole, Rect.mem_set_unit]
  exact Iff.rfl

/-- Every index is in the block of the point `row / 5000`. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_5 _, ?_⟩
  rw [mem_blk]
  obtain ⟨-, -, -, -, -, -, -, -, -, -, e0, e1, -⟩ := idx_facts ⟨(i 0).val / 5000, by rw [hN]; omega⟩
  intro a
  match a with
  | ⟨0, _⟩ => show win2_5.index _ (0 : Fin 2) * 5000 ≤ (i 0).val ∧ (i 0).val < win2_5.index _ (0 : Fin 2) * 5000 + 5000; rw [e0]; show (i 0).val / 5000 * 5000 ≤ (i 0).val ∧ (i 0).val < (i 0).val / 5000 * 5000 + 5000; omega
  | ⟨1, _⟩ => show win2_5.index _ (1 : Fin 2) * 128 ≤ (i 1).val ∧ (i 1).val < win2_5.index _ (1 : Fin 2) * 128 + 128; rw [e1]; omega

/-- The array after the region: the layer of the arrays it found. -/
theorem final
    (hbody : ∀ (x0 x1 : Vec Ideal S5000x128 .f32) (x2 : Vec Ideal S128x128 .f32) (x3 : Vec Ideal S1x128 .f32) (x4 : Vec Ideal S128x128 .f32)
      (r : Fin 5000) (q : Fin 128), out2_5 (F := Ideal) x0 x1 x2 x3 x4 (ix2 r q)
        = max (((∑ k : Fin 128, x0 (ix2 r k) * x2 (ix2 k q)) + (∑ k : Fin 128, x1 (ix2 r k) * x4 (ix2 k q))) + x3 (ix2 (0 : Fin 1) q)) Cert.Spec.Z)
    (c : Dev nD) : (dat2 V c).arrAt 5 cfg2.N = G V c :=
  (dat2 V c).arrAt_eq_of_cover 5 (G V c) (fun t _ => flushed_eq V hbody c t) cover

end Cert.KernelIdeal.KLayer2

end
-- ==== Proof.KHead.lean ====
/-
  Region 3 (the head, one grid point, every window its whole array): the array its write-back leaves is, row by row,
  the head's function of the padded pooled rows and the head's weights as the region finds them.
-/
import proofs.«107780_j45122926412013_1_alg».proof.Proof.Gen.KernelIdeal.Frame
import proofs.«107780_j45122926412013_1_alg».proof.Proof.Spec
import Idealize.ShloMosaic.Lib.Pipeline.Value
import Idealize.ShloMosaic.Lib.ValueIdx

set_option maxRecDepth 16384

noncomputable section

namespace Cert.KernelIdeal.KHead

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps at the one grid point: every window at block 0. -/
theorem idx_facts : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

theorem iblk_0 (c : Dev nD) (t : Fin cfg3.N) : iblk3 V c 0 t = V c main_v86 := by
  obtain ⟨e0, e1, -⟩ := idx_facts t
  funext y
  show V c main_v86 (((cfg3.win 0).blk t).view.emb y) = V c main_v86 y
  refine congrArg _ (funext fun a => Fin.ext ?_)
  match a with
  | ⟨0, _⟩ => show win3_0.index t (0 : Fin 2) * 512 + 1 * (y 0).val = (y 0).val; omega
  | ⟨1, _⟩ => show win3_0.index t (1 : Fin 2) * 128 + 1 * (y 1).val = (y 1).val; omega

theorem iblk_1 (c : Dev nD) (t : Fin cfg3.N) : iblk3 V c 1 t = V c main_v87 := by
  obtain ⟨-, -, e0, e1, -⟩ := idx_facts t
  funext y
  show V c main_v87 (((cfg3.win 1).blk t).view.emb y) = V c main_v87 y
  refine congrArg _ (funext fun a => Fin.ext ?_)
  match a with
  | ⟨0, _⟩ => show win3_1.index t (0 : Fin 2) * 128 + 1 * (y 0).val = (y 0).val; omega
  | ⟨1, _⟩ => show win3_1.index t (1 : Fin 2) * 128 + 1 * (y 1).val = (y 1).val; omega

theorem iblk_2 (c : Dev nD) (t : Fin cfg3.N) : iblk3 V c 2 t = V c main_v89 := by
  obtain ⟨-, -, -, -, e0, e1, -⟩ := idx_facts t
  funext y
  show V c main_v89 (((cfg3.win 2).blk t).view.emb y) = V c main_v89 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

theorem iblk_3 (c : Dev nD) (t : Fin cfg3.N) : iblk3 V c 3 t = V c main_v88 := by
  obtain ⟨-, -, -, -, -, -, e0, e1, -⟩ := idx_facts t
  funext y
  show V c main_v88 (((cfg3.win 3).blk t).view.emb y) = V c main_v88 y
  refine congrArg _ (funext fun a => Fin.ext ?_)
  match a with
  | ⟨0, _⟩ => show win3_3.index t (0 : Fin 2) * 128 + 1 * (y 0).val = (y 0).val; omega
  | ⟨1, _⟩ => show win3_3.index t (1 : Fin 2) * 10 + 1 * (y 1).val = (y 1).val; omega

theorem iblk_4 (c : Dev nD) (t : Fin cfg3.N) : iblk3 V c 4 t = V c main_v90 := by
  obtain ⟨-, -, -, -, -, -, -, -, e0, e1, -⟩ := idx_facts t
  funext y
  show V c main_v90 (((cfg3.win 4).blk t).view.emb y) = V c main_v90 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 10 + 1 * (y 1).val = (y 1).val; omega

/-- The head, row by row, of the arrays the region finds. -/
abbrev G (c : Dev nD) : FVec Ideal S512x10 .f32 :=
  fun i => Cert.Spec.headRow (fun k => V c main_v86 (ix2 (i 0) k)) (V c main_v87) (V c main_v89) (V c main_v88) (V c main_v90) (i 1)

/-- What the one point writes back is the head of the arrays. -/
theorem flushed_eq
    (hbody : ∀ (x0 : Vec Ideal S512x128 .f32) (x1 : Vec Ideal S128x128 .f32) (x2 : Vec Ideal S1x128 .f32) (x3 : Vec Ideal S128x10 .f32)
      (x4 : Vec Ideal S1x10 .f32) (r : Fin 512) (j : Fin 10),
      out3_5 (F := Ideal) x0 x1 x2 x3 x4 (ix2 r j) = Cert.Spec.headRow (fun k => x0 (ix2 r k)) x1 x2 x3 x4 j)
    (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5, iblk_0 V c t, iblk_1 V c t, iblk_2 V c t, iblk_3 V c t, iblk_4 V c t]
  funext (j : S512x10.Idx)
  obtain ⟨r, q, rfl⟩ : ∃ (r : Fin 512) (q : Fin 10), j = ix2 r q := ⟨j 0, j 1, eq_ix2 j⟩
  show out3_5 (F := Ideal) (V c main_v86) (V c main_v87) (V c main_v89) (V c main_v88) (V c main_v90) (ix2 r q)
      = G V c (((cfg3.win 5).blk t).view.emb (ix2 r q))
  have hemb : ((cfg3.win 5).blk t).view.emb (ix2 r q) = ix2 r q := by
    obtain ⟨-, -, -, -, -, -, -, -, -, -, e0, e1⟩ := idx_facts t
    refine funext fun a => Fin.ext ?_
    match a with
    | ⟨0, _⟩ => show win3_5.index t (0 : Fin 2) * 512 + 1 * r.val = r.val; omega
    | ⟨1, _⟩ => show win3_5.index t (1 : Fin 2) * 10 + 1 * q.val = q.val; omega
  rw [hemb, hbody]

/-- An index of the array is in the point's block iff each coordinate is in the block's range. -/
theorem mem_blk (t : Fin cfg3.N) (i : S512x10.Idx) :
    i ∈ ((cfg3.win 5).blk t).view.set ↔ ∀ a : Fin 2, win3_5.index t a * S512x10.size a ≤ (i a).val ∧ (i a).val < win3_5.index t a * S512x10.size a + S512x10.size a := by
  show i ∈ ((View.whole main_v91).slice (win3_5.rect t)).set ↔ _
  rw [View.set_slice_whole, Rect.mem_set_unit]
  exact Iff.rfl

/-- The one block is the whole array. -/
theorem cover (i : S512x10.Idx) : ∃ t : Fin cfg3.N, (cfg3.win 5).flush t = true ∧ i ∈ ((cfg3.win 5).blk t).view.set := by
  have hi0 : (i 0).val < 512 := (i 0).isLt
  have hi1 : (i 1).val < 10 := (i 1).isLt
  refine ⟨t3_0, flush3_5 _, ?_⟩
  rw [mem_blk]
  obtain ⟨-, -, -, -, -, -, -, -, -, -, e0, e1⟩ := idx_facts t3_0
  intro a
  match a with
  | ⟨0, _⟩ => show win3_5.index _ (0 : Fin 2) * 512 ≤ (i 0).val ∧ (i 0).val < win3_5.index _ (0 : Fin 2) * 512 + 512; rw [e0]; omega
  | ⟨1, _⟩ => show win3_5.index _ (1 : Fin 2) * 10 ≤ (i 1).val ∧ (i 1).val < win3_5.index _ (1 : Fin 2) * 10 + 10; rw [e1]; omega

/-- The array after the region: the head of the arrays it found. -/
theorem final
    (hbody : ∀ (x0 : Vec Ideal S512x128 .f32) (x1 : Vec Ideal S128x128 .f32) (x2 : Vec Ideal S1x128 .f32) (x3 : Vec Ideal S128x10 .f32)
      (x4 : Vec Ideal S1x10 .f32) (r : Fin 512) (j : Fin 10),
      out3_5 (F := Ideal) x0 x1 x2 x3 x4 (ix2 r j) = Cert.Spec.headRow (fun k => x0 (ix2 r k)) x1 x2 x3 x4 j)
    (c : Dev nD) : (dat3 V c).arrAt 5 cfg3.N = G V c :=
  (dat3 V c).arrAt_eq_of_cover 5 (G V c) (fun t _ => flushed_eq V hbody c t) cover

end Cert.KernelIdeal.KHead

end
-- ==== Proof.Bodies.lean ====
/-
  The four kernel bodies read at an index, at the ideal values.

  Each body stores its whole output block once, so the block after the body is the body's arithmetic of the loaded
  blocks. Read at (r, c): a layer's body is
      max ( Σ_k a[r,k]·wl[k,c] + Σ_k x[r,k]·wr[k,c] + b[0,c] , 0 ),
  and the head's body is the log-softmax of the logits of the hidden row of the pooled row r.
-/
import proofs.«107780_j45122926412013_1_alg».proof.Proof.Gen.KernelIdeal.Frame
import proofs.«107780_j45122926412013_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Bodies

open Idealize.ShloMosaic Idealize.ShloMosaic.ValueIdx Cert.KernelIdeal Cert.KernelIdeal.Gen

/-! ## The matrix products read at an index -/

theorem matmul_5000x128_l0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem matmul_5000x128_l1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem matmul_5000x128_r0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem matmul_5000x128_r1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a [5000, 128] block and a [128, 128] block into the zero accumulator, read at (r, c): the sum over the
    contracted coordinate. -/
theorem matmul_5000x128 {φ₁ φ₂ : FTy} (a : FVec Ideal S5000x128 φ₁) (b : FVec Ideal S128x128 φ₂) (r : Fin 5000) (c : Fin 128) :
    matmul dot_S5000x128_S128x128_S5000x128_1_0_0_1_n_n none a b (constant S5000x128 .f32 0x00000000#32) (ix2 r c)
      = ∑ k : Fin 128, a (ix2 r k) * b (ix2 k c) := by
  refine (Ideal.matmul_constant_zero_apply dot_S5000x128_S128x128_S5000x128_1_0_0_1_n_n none a b (ix2 r c)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r c) ((contrEquiv1 dot_S5000x128_S128x128_S5000x128_1_0_0_1_n_n 128 rfl rfl).symm k) = ix2 r k := funext fun x => Fin.ext (by
    match x with
    | ⟨0, _⟩ => exact matmul_5000x128_l0 _ _
    | ⟨1, _⟩ => exact (matmul_5000x128_l1 _ _).trans hk)
  have er : dot_S5000x128_S128x128_S5000x128_1_0_0_1_n_n.rhsIdx (ix2 r c) ((contrEquiv1 dot_S5000x128_S128x128_S5000x128_1_0_0_1_n_n 128 rfl rfl).symm k) = ix2 k c := funext fun x => Fin.ext (by
    match x with
    | ⟨0, _⟩ => exact (matmul_5000x128_r0 _ _).trans hk
    | ⟨1, _⟩ => exact matmul_5000x128_r1 _ _)
  rw [el, er]

theorem matmul_512x128_l0 (i : S512x128.Idx) (q : dot_S512x128_S128x128_S512x128_1_0_0_1_n_n.contr.Idx) : (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem matmul_512x128_l1 (i : S512x128.Idx) (q : dot_S512x128_S128x128_S512x128_1_0_0_1_n_n.contr.Idx) : (dot_S512x128_S128x128_S512x128_1_0_0_1_n_n.lhsIdx i q 1).val = (q ⟨0, by decide⟩).val :=
  dot_S512x128_S128x128_S512x128_1_0_0_1_n_n.lhsIdx_val_of_single rfl i q
theorem matmul_512x128_r0 (i : S512x128.Idx) (q : dot_S512x128_S128x128_S512x128_1_0_0_1_n_n.contr.Idx) : (dot_S512x128_S128x128_S512x128_1_0_0_1_n_n.rhsIdx i q 0).val = (q ⟨0, by decide⟩).val :=
  dot_S512x128_S128x128_S512x128_1_0_0_1_n_n.rhsIdx_val_of_single rfl i q
theorem matmul_512x128_r1 (i : S512x128.Idx) (q : dot_S512x128_S128x128_S512x128_1_0_0_1_n_n.contr.Idx) : (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The product of a [512, 128] block and a [128, 128] block into the zero accumulator, read at (r, c): the sum over the
    contracted coordinate. -/
theorem matmul_512x128 {φ₁ φ₂ : FTy} (a : FVec Ideal S512x128 φ₁) (b : FVec Ideal S128x128 φ₂) (r : Fin 512) (c : Fin 128) :
    matmul dot_S512x128_S128x128_S512x128_1_0_0_1_n_n none a b (constant S512x128 .f32 0x00000000#32) (ix2 r c)
      = ∑ k : Fin 128, a (ix2 r k) * b (ix2 k c) := by
  refine (Ideal.matmul_constant_zero_apply dot_S512x128_S128x128_S512x128_1_0_0_1_n_n none a b (ix2 r c)).trans ?_
  rw [← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 r c) ((contrEquiv1 dot_S512x128_S128x128_S512x128_1_0_0_1_n_n 128 rfl rfl).symm k) = ix2 r k := funext fun x => Fin.ext (by
    match x with
    | ⟨0, _⟩ => exact matmul_512x128_l0 _ _
    | ⟨1, _⟩ => exact (matmul_512x128_l1 _ _).trans hk)
  have er : dot_S512x128_S128x128_S512x128_1_0_0_1_n_n.rhsIdx (ix2 r c) ((contrEquiv1 dot_S512x128_S128x128_S512x128_1_0_0_1_n_n 128 rfl rfl).symm k) = ix2 k c := funext fun x => Fin.ext (by
    match x with
    | ⟨0, _⟩ => exact (matmul_512x128_r0 _ _).trans hk
    | ⟨1, _⟩ => exact matmul_512x128_r1 _ _)
  rw [el, er]

theorem matmul_512x10_l0 (i : S512x10.Idx) (q : dot_S512x128_S128x10_S512x10_1_0_0_1_n_n.contr.Idx) : (dot_S512x128_S128x10_S512x10_1_0_0_1_n_n.lhsIdx i q 0).val = (i 0).val := by
  unfold DotDims.lhsIdx
  rw [dif_neg (show ¬(0 : Fin S512x128.rank) ∈ dot_S512x128_S128x10_S512x10_1_0_0_1_n_n.lhsBatch by decide), dif_pos (show (0 : Fin S512x128.rank) ∈ dot_S512x128_S128x10_S512x10_1_0_0_1_n_n.lhsNonContracting by decide)]
  rfl
theorem matmul_512x10_l1 (i : S512x10.Idx) (q : dot_S512x128_S128x10_S512x10_1_0_0_1_n_n.contr.Idx) : (dot_S512x128_S128x10_S512x10_1_0_0_1_n_n.lhsIdx i q 1).val = (q ⟨0, by decide⟩).val :=
  dot_S512x128_S128x10_S512x10_1_0_0_1_n_n.lhsIdx_val_of_single rfl i q
theorem matmul_512x10_r0 (i : S512x10.Idx) (q : dot_S512x128_S128x10_S512x10_1_0_0_1_n_n.contr.Idx) : (dot_S512x128_S128x10_S512x10_1_0_0_1_n_n.rhsIdx i q 0).val = (q ⟨0, by decide⟩).val :=
  dot_S512x128_S128x10_S512x10_1_0_0_1_n_n.rhsIdx_val_of_single rfl i q
theorem matmul_512x10_r1 (i : S512x10.Idx) (q : dot_S512x128_S128x10_S512x10_1_0_0_1_n_n.contr.Idx) : (dot_S512x128_S128x10_S512x10_1_0_0_1_n_n.rhsIdx i q 1).val = (i 1).val := by
  unfold DotDims.rhsIdx
  rw [dif_neg (show ¬(1 : Fin S128x10.rank) ∈ dot_S512x128_S128x10_S512x10_1_0_0_1_n_n.rhsBatch by decide), dif_pos (show (1 : Fin S128x10.rank) ∈ dot_S512x128_S128x10_S512x10_1_0_0_1_n_n.rhsNonContracting by decide)]
  rfl

/-- The product of a [512, 128] block and a [128, 10] block into the zero accumulator, read at (r, c): the sum over the
    contracted coordinate. -/
theorem matmul_512x10 {φ₁ φ₂ : FTy} (a : FVec Ideal S512x128 φ₁) (b : FVec Ideal S128x10 φ₂) (r : Fin 512) (c : Fin 10) :
    matmul dot_S512x128_S128x10_S512x10_1_0_0_1_n_n none a b (constant S512x10 .f32 0x00000000#32) (ix2 r c)
      = ∑ k : Fin 128, a (ix2 r k) * b (ix2 k c) := by
  refine (Ideal.matmul_constant_zero_apply dot_S512x128_S128x10_S512x10_1_0_0_1_n_n none a b (ix2 r c)).trans ?_
  rw [← Equiv.sum_comp (contrEquiv1 dot_S512x128_S128x10_S512x10_1_0_0_1_n_n 128 rfl rfl).symm]
  refine Finset.sum_congr rfl fun k _ => ?_
  have hk := contrEquiv1_symm_val dot_S512x128_S128x10_S512x10_1_0_0_1_n_n 128 rfl rfl k
  have el : dot_S512x128_S128x10_S512x10_1_0_0_1_n_n.lhsIdx (ix2 r c) ((contrEquiv1 dot_S512x128_S128x10_S512x10_1_0_0_1_n_n 128 rfl rfl).symm k) = ix2 r k := funext fun x => Fin.ext (by
    match x with
    | ⟨0, _⟩ => exact matmul_512x10_l0 _ _
    | ⟨1, _⟩ => exact (matmul_512x10_l1 _ _).trans hk)
  have er : dot_S512x128_S128x10_S512x10_1_0_0_1_n_n.rhsIdx (ix2 r c) ((contrEquiv1 dot_S512x128_S128x10_S512x10_1_0_0_1_n_n 128 rfl rfl).symm k) = ix2 k c := funext fun x => Fin.ext (by
    match x with
    | ⟨0, _⟩ => exact (matmul_512x10_r0 _ _).trans hk
    | ⟨1, _⟩ => exact matmul_512x10_r1 _ _)
  rw [el, er]

/-! ## The three layer bodies -/

/-- The offset of a whole-block rectangle is zero on both axes. -/
theorem hz : (![0, 0] : Fin 2 → Nat) = fun _ => 0 := funext fun a => by fin_cases a <;> rfl

/-- Layer 0's body read at node `r`, feature `c`: the whole block is stored once, the narrowing casts and
    same-shape casts are identities at the ideal values, each product is its sum, the bias row is broadcast over the
    rows, and the rectifier is the maximum with the zero word. -/
theorem out0_5_apply (x0 x1 : Vec Ideal S5000x128 .f32) (x2 : Vec Ideal S128x128 .f32) (x3 : Vec Ideal S1x128 .f32) (x4 : Vec Ideal S128x128 .f32) (r : Fin 5000) (c : Fin 128) :
    out0_5 (F := Ideal) x0 x1 x2 x3 x4 (ix2 r c)
      = max (((∑ k : Fin 128, x0 (ix2 r k) * x2 (ix2 k c)) + (∑ k : Fin 128, x1 (ix2 r k) * x4 (ix2 k c))) + x3 (ix2 (0 : Fin 1) c)) Cert.Spec.Z := by
  unfold out0_5
  rw [View.canon_unit_zero hz]
  simp only [View.ld_unit_zero (S := S5000x128) hz, View.ld_unit_zero (S := S128x128) hz, View.ld_unit_zero (S := S1x128) hz]
  unfold k0_pay1
  simp only [shapeCast_self, maximumf_apply, addf_apply, broadcast_apply, broadcastTo_1b_ab_apply, matmul_5000x128, truncf_apply]
  rfl

/-- Layer 1's body read at node `r`, feature `c`: the whole block is stored once, the narrowing casts and
    same-shape casts are identities at the ideal values, each product is its sum, the bias row is broadcast over the
    rows, and the rectifier is the maximum with the zero word. -/
theorem out1_5_apply (x0 x1 : Vec Ideal S5000x128 .f32) (x2 : Vec Ideal S128x128 .f32) (x3 : Vec Ideal S1x128 .f32) (x4 : Vec Ideal S128x128 .f32) (r : Fin 5000) (c : Fin 128) :
    out1_5 (F := Ideal) x0 x1 x2 x3 x4 (ix2 r c)
      = max (((∑ k : Fin 128, x0 (ix2 r k) * x2 (ix2 k c)) + (∑ k : Fin 128, x1 (ix2 r k) * x4 (ix2 k c))) + x3 (ix2 (0 : Fin 1) c)) Cert.Spec.Z := by
  unfold out1_5
  rw [View.canon_unit_zero hz]
  simp only [View.ld_unit_zero (S := S5000x128) hz, View.ld_unit_zero (S := S128x128) hz, View.ld_unit_zero (S := S1x128) hz]
  unfold k1_pay1
  simp only [shapeCast_self, maximumf_apply, addf_apply, broadcast_apply, broadcastTo_1b_ab_apply, matmul_5000x128, truncf_apply]
  rfl

/-- Layer 2's body read at node `r`, feature `c`: the whole block is stored once, the narrowing casts and
    same-shape casts are identities at the ideal values, each product is its sum, the bias row is broadcast over the
    rows, and the rectifier is the maximum with the zero word. -/
theorem out2_5_apply (x0 x1 : Vec Ideal S5000x128 .f32) (x2 : Vec Ideal S128x128 .f32) (x3 : Vec Ideal S1x128 .f32) (x4 : Vec Ideal S128x128 .f32) (r : Fin 5000) (c : Fin 128) :
    out2_5 (F := Ideal) x0 x1 x2 x3 x4 (ix2 r c)
      = max (((∑ k : Fin 128, x0 (ix2 r k) * x2 (ix2 k c)) + (∑ k : Fin 128, x1 (ix2 r k) * x4 (ix2 k c))) + x3 (ix2 (0 : Fin 1) c)) Cert.Spec.Z := by
  unfold out2_5
  rw [View.canon_unit_zero hz]
  simp only [View.ld_unit_zero (S := S5000x128) hz, View.ld_unit_zero (S := S128x128) hz, View.ld_unit_zero (S := S1x128) hz]
  unfold k2_pay1
  simp only [shapeCast_self, maximumf_apply, addf_apply, broadcast_apply, broadcastTo_1b_ab_apply, matmul_5000x128, truncf_apply]
  rfl

/-! ## The head's keep-dimension forms and row reductions -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with column `k` put back is (r, k). -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- The maximum over a row of ten, at row `r`: the fold of `max` from the accumulator's word over the row. -/
theorem rowMax_apply (v : FVec Ideal S512x10 .f32) (h : S512x10.Reduces [1] S512) (hφ : FTy.f32 = FTy.f32 ∨ FTy.f32 = FTy.bf16)
    (hacc : (0xFF800000#32 : BitVec FTy.f32.bits) = 0xFF800000#32) (r : Fin 512) :
    multiReduction .maximumf [1] S512 v 0xFF800000#32 h hφ hacc (ix1 r)
      = (Finset.univ : Finset (Fin 10)).fold max (Ideal.ofBits .f32 0xFF800000#32) (fun k => v (ix2 r k)) := by
  refine (Ideal.multiReduction_maximumf_single v _ h hφ hacc (ix1 r)).trans ?_
  have hf : (v ∘ h.lift (ix1 r)) = fun k : Fin 10 => v (ix2 r k) := funext fun k => congrArg v (lift_row h r k)
  exact congrArg (fun f => Finset.fold max (Ideal.ofBits .f32 0xFF800000#32) f (Finset.univ : Finset (Fin 10))) hf

/-- The sum over a row of ten, at row `r`. -/
theorem rowSum_apply (v : FVec Ideal S512x10 .f32) (h : S512x10.Reduces [1] S512) (hφ : FTy.f32 = FTy.f32 ∨ FTy.f32 = FTy.bf16)
    (hacc : (0x00000000#32 : BitVec FTy.f32.bits) = 0x00000000#32) (r : Fin 512) :
    multiReduction .add [1] S512 v 0x00000000#32 h hφ hacc (ix1 r) = ∑ k : Fin 10, v (ix2 r k) := by
  refine (Ideal.multiReduction_add_single v _ h hφ hacc (ix1 r)).trans ?_
  exact Finset.sum_congr rfl fun k _ => congrArg v (lift_row h r k)

/-- The exponential of a block at an index is the exponential of the element. -/
theorem exp_apply {s : Shape} {φ : FTy} (x : FVec Ideal s φ) (i : s.Idx) : exp x i = Ideal.exp (x i) := rfl
/-- The logarithm of a block at an index is the logarithm of the element. -/
theorem log_apply {s : Shape} {φ : FTy} (x : FVec Ideal s φ) (i : s.Idx) : log x i = Ideal.log (x i) := rfl

/-! ## The head's body -/

/-- The head's body read at pooled row `r`, class `j`: the rectified row times the first weights plus its bias,
    rectified, times the second weights plus its bias, then the log-softmax over the row of ten logits, the row's
    maximum and the row's sum of exponentials being kept as a column and broadcast back over the row. -/
theorem out3_5_apply (x0 : Vec Ideal S512x128 .f32) (x1 : Vec Ideal S128x128 .f32) (x2 : Vec Ideal S1x128 .f32) (x3 : Vec Ideal S128x10 .f32) (x4 : Vec Ideal S1x10 .f32) (r : Fin 512) (j : Fin 10) :
    out3_5 (F := Ideal) x0 x1 x2 x3 x4 (ix2 r j) = Cert.Spec.headRow (fun k => x0 (ix2 r k)) x1 x2 x3 x4 j := by
  unfold out3_5
  rw [View.canon_unit_zero hz]
  simp only [View.ld_unit_zero (S := S512x128) hz, View.ld_unit_zero (S := S128x128) hz, View.ld_unit_zero (S := S1x128) hz,
    View.ld_unit_zero (S := S128x10) hz, View.ld_unit_zero (S := S1x10) hz]
  unfold k3_pay1
  simp only [shapeCast_self, subf_apply, broadcastTo_a1_ab_apply, log_apply, shapeCast_a_a1_apply, addf_apply,
    broadcastTo_1b_ab_apply, matmul_512x10, truncf_apply, maximumf_apply, broadcast_apply, matmul_512x128]
  rw [rowSum_apply]
  simp only [exp_apply, subf_apply, broadcastTo_a1_ab_apply, shapeCast_a_a1_apply, addf_apply,
    broadcastTo_1b_ab_apply, matmul_512x10, truncf_apply, maximumf_apply, broadcast_apply, matmul_512x128]
  rw [rowMax_apply]
  simp only [addf_apply, broadcastTo_1b_ab_apply, matmul_512x10, truncf_apply, maximumf_apply, broadcast_apply, matmul_512x128]
  rfl

end Cert.KernelIdeal.Bodies

end
-- ==== Proof.KValue.lean ====
/-
  The idealized kernel's result as the network's function of the argument arrays: each layer region leaves the layer
  of what it found (the mean aggregation of the previous features, the layer's weights), the head region the head of
  the padded pooled rows, and the final slice keeps the 500 true rows, where the padded rows ARE the pooled rows.
-/
import proofs.«107780_j45122926412013_1_alg».proof.Proof.KRun
import proofs.«107780_j45122926412013_1_alg».proof.Proof.KHost
import proofs.«107780_j45122926412013_1_alg».proof.Proof.KLayer0
import proofs.«107780_j45122926412013_1_alg».proof.Proof.KLayer1
import proofs.«107780_j45122926412013_1_alg».proof.Proof.KLayer2
import proofs.«107780_j45122926412013_1_alg».proof.Proof.KHead
import proofs.«107780_j45122926412013_1_alg».proof.Proof.Bodies
import Idealize.ShloMosaic.Lib.ValueLayout
import Idealize.ShloMosaic.Lib.KernelVsHost

set_option maxRecDepth 16384

noncomputable section

namespace Cert.KernelIdeal.KValue

open Cert.KernelIdeal Cert.KernelIdeal.Gen Cert.Shared Cert.KernelIdeal.KHost
open Idealize.ShloMosaic Idealize.ShloMosaic.TcCoe Idealize.ShloMosaic.ValueIdx Idealize.SL.Sem

variable (m : (ℓ : Loc nD τ sig) → Buf (Elt Ideal) ℓ) (ρ : Dev nD → PrngReg)

/-- After region 0: the features after layer 0. -/
theorem x1v (c : Dev nD) : (V2 m ρ c main_v32 : S50000x128.Idx → EReal)
    = X1 (m ((c : Thread nD τ).loc main_arg0)) (m ((c : Thread nD τ).loc main_arg2)) (m ((c : Thread nD τ).loc main_arg4))
        (m ((c : Thread nD τ).loc main_arg5)) (m ((c : Thread nD τ).loc main_arg6)) := by
  refine ((W2_arr m ρ c 5).trans (KLayer0.final (V1 m ρ) Bodies.out0_5_apply c)).trans ?_
  show Cert.Spec.layer (V1 m ρ c main_v25) (V1 m ρ c main_arg0) (V1 m ρ c main_v27) (V1 m ρ c main_v29) (V1 m ρ c main_v31) = _
  rw [e0_0, e0_1, e0_2, e0_3, e0_4]
  rfl

/-- After region 1: the features after layer 1. -/
theorem x2v (c : Dev nD) : (V4 m ρ c main_v57 : S50000x128.Idx → EReal)
    = X2 (m ((c : Thread nD τ).loc main_arg0)) (m ((c : Thread nD τ).loc main_arg2)) (m ((c : Thread nD τ).loc main_arg4))
        (m ((c : Thread nD τ).loc main_arg5)) (m ((c : Thread nD τ).loc main_arg6)) := by
  refine ((W4_arr m ρ c 5).trans (KLayer1.final (V3 m ρ) Bodies.out1_5_apply c)).trans ?_
  show Cert.Spec.layer (V3 m ρ c main_v50) (V3 m ρ c main_v32) (V3 m ρ c main_v52) (V3 m ρ c main_v54) (V3 m ρ c main_v56) = _
  rw [e1_0, e1_1, e1_2, e1_3, e1_4, x1v]
  rfl

/-- After region 2: the features after layer 2. -/
theorem x3v (c : Dev nD) : (V6 m ρ c main_v82 : S50000x128.Idx → EReal)
    = X3 (m ((c : Thread nD τ).loc main_arg0)) (m ((c : Thread nD τ).loc main_arg2)) (m ((c : Thread nD τ).loc main_arg4))
        (m ((c : Thread nD τ).loc main_arg5)) (m ((c : Thread nD τ).loc main_arg6)) := by
  refine ((W6_arr m ρ c 5).trans (KLayer2.final (V5 m ρ) Bodies.out2_5_apply c)).trans ?_
  show Cert.Spec.layer (V5 m ρ c main_v75) (V5 m ρ c main_v57) (V5 m ρ c main_v77) (V5 m ρ c main_v79) (V5 m ρ c main_v81) = _
  rw [e2_0, e2_1, e2_2, e2_3, e2_4, x2v]
  rfl

/-- A true row of the padded pooled rows is the pooled row. -/
theorem padded_apply (g : FVec Ideal S500x128 .f32) (r : Fin 500) (k : Fin 128) :
    padded g (ix2 (⟨r.val, by have := r.isLt; omega⟩ : Fin 512) k) = g (ix2 r k) := by
  unfold padded
  refine pad_apply_of_inside _ _ _ g _ _ _ _ (ix2 r k) (fun a => ?_)
  match a with
  | ⟨0, _⟩ => show r.val = 0 + r.val * (0 + 1); omega
  | ⟨1, _⟩ => show k.val = 0 + k.val * (0 + 1); omega

/-- The kernel's result: the network's function of the arguments. -/
theorem outv (c : Dev nD) : (W11 m ρ c (Proc.devRef .tc main_v92) : S500x10.Idx → EReal)
    = OUT (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9))
        (m ((c : Thread nD τ).loc main_arg10)) := by
  rw [e4]
  have hfin : (V10 m ρ c main_v91 : S512x10.Idx → EReal) = KHead.G (V9 m ρ) c :=
    (W10_arr m ρ c 5).trans (KHead.final (V9 m ρ) Bodies.out3_5_apply c)
  rw [hfin]
  funext i
  obtain ⟨r, q, rfl⟩ : ∃ (r : Fin 500) (q : Fin 10), i = ix2 r q := ⟨i 0, i 1, eq_ix2 i⟩
  rw [slice2_axis0_apply 0 _ _ r q (⟨r.val, by have := r.isLt; omega⟩ : Fin 512) (by simp)]
  show Cert.Spec.headRow (fun k => V9 m ρ c main_v86 (ix2 (⟨r.val, _⟩ : Fin 512) k)) (V9 m ρ c main_v87) (V9 m ρ c main_v89) (V9 m ρ c main_v88) (V9 m ρ c main_v90) q
      = Cert.Spec.headRow (fun k => pool (X3 _ _ _ _ _) _ (ix2 r k)) (hW1 _) (hB1 _) (hW2 _) (hB2 _) q
  rw [e3_0, e3_1, e3_2, e3_3, e3_4, x3v]
  refine congrArg (fun g => Cert.Spec.headRow g _ _ _ _ q) (funext fun k => ?_)
  exact padded_apply _ r k

/-- The idealized kernel's run, its result at the network's function of the arguments. -/
theorem run : θ_run defs (onTc (τ := τ) (main (F := Ideal))) ⟨m, fun _ => 0, ρ⟩ (fun r => ∀ c : Dev nD,
      r.2.mem ((c.tc : Thread nD τ).loc main_v92)
        = OUT (m ((c : Thread nD τ).loc main_arg0)) (m ((c : Thread nD τ).loc main_arg2)) (m ((c : Thread nD τ).loc main_arg3))
            (m ((c : Thread nD τ).loc main_arg4)) (m ((c : Thread nD τ).loc main_arg5)) (m ((c : Thread nD τ).loc main_arg6))
            (m ((c : Thread nD τ).loc main_arg7)) (m ((c : Thread nD τ).loc main_arg8)) (m ((c : Thread nD τ).loc main_arg9))
            (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (outv m ρ c), (h c).2⟩) (KRun.run_out (F := Ideal) m ρ)

end Cert.KernelIdeal.KValue

end
-- ==== Proof.RefValue.lean ====
/-
  The reference program computes the network of the shared definition.

  Each of the three layers: the reference adds (Σ_k mean[r,k]·wl[k,c] + b[0,c]) + Σ_k x[r,k]·wr[k,c] and takes the maximum with
  the zero word; the specification adds the two sums first. Addition in the extended reals is commutative and associative, so the
  two agree. The weights reach the products by two routes (slice, reshape, transpose — or transpose the stack, slice, reshape):
  both read the stack at (l, c, k). The bias rows likewise both read the bias matrix at (l, c). The mean aggregation and the
  pooling are the same chains of host operations on the same operands on both sides.
  The head: two products with bias rows and rectifiers, then the log-softmax, whose row maximum max(−∞, fold of max from −∞) is
  the fold, and whose sum from the zero word is the sum.
-/
import proofs.«107780_j45122926412013_1_alg».proof.Proof.Gen.ReferenceIdeal.Read
import proofs.«107780_j45122926412013_1_alg».proof.Proof.Shared
import Idealize.ShloMosaic.Lib.ValueLayout

set_option maxRecDepth 16384

noncomputable section

namespace Cert.ReferenceIdeal.RefValue

open Idealize.ShloMosaic Idealize.ShloMosaic.ValueIdx Cert.ReferenceIdeal Cert.ReferenceIdeal.Gen Cert.ReferenceIdeal.Read

/-- A row-by-matrix product read at node `r`, feature `c`: the sum over the contracted axis. -/
theorem dot_apply (y0 : FVec Ideal S50000x128 .f32) (y1 : FVec Ideal S128x128 .f32) (r : Fin 50000) (c : Fin 128) :
    Host.dotGeneral (F := Ideal) dot_S50000x128_S128x128_S50000x128_1_0_0_1_n_n none y0 y1 (ix2 r c)
      = ∑ k : Fin 128, y0 (ix2 r k) * y1 (ix2 k c) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 r c) ((ValueIdx.contrEquiv1 dot_S50000x128_S128x128_S50000x128_1_0_0_1_n_n 128 rfl rfl).symm k) = ix2 r k := funext fun a => Fin.ext (by
    match a with
    | ⟨0, _⟩ => exact lhs_main_v30_0 _ _
    | ⟨1, _⟩ => exact (lhs_main_v30_1 _ _).trans hk)
  have er : dot_S50000x128_S128x128_S50000x128_1_0_0_1_n_n.rhsIdx (ix2 r c) ((ValueIdx.contrEquiv1 dot_S50000x128_S128x128_S50000x128_1_0_0_1_n_n 128 rfl rfl).symm k) = ix2 k c := funext fun a => Fin.ext (by
    match a with
    | ⟨0, _⟩ => exact (rhs_main_v30_0 _ _).trans hk
    | ⟨1, _⟩ => exact rhs_main_v30_1 _ _)
  rw [el, er]

/-- A row of biases repeated over the nodes reads its one row. -/
theorem biasRows_apply (b : FVec Ideal S1x128 .f32) (r : Fin 50000) (c : Fin 128) :
    broadcastInDim S50000x128 ![0, 1] bcast_S1x128_S50000x128_0_1 b (ix2 r c) = b (ix2 (0 : Fin 1) c) :=
  broadcastInDim_apply _ bcast_S1x128_S50000x128_0_1 b (ix2 r c) (ix2 (0 : Fin 1) c) (fun a => match a with
    | ⟨0, _⟩ => by show 0 = if (1 : Nat) = 1 then 0 else r.val; rw [if_pos rfl]
    | ⟨1, _⟩ => by show c.val = if (128 : Nat) = 1 then 0 else c.val; rw [if_neg (by decide)])

/-- The zero word repeated over the nodes and features reads the zero word. -/
theorem zeros_apply (i : S50000x128.Idx) :
    broadcastInDim S50000x128 ![] bcast_S_S50000x128 (constant (F := Ideal) S_ .f32 0x00000000#32) i = Cert.Spec.Z :=
  broadcastInDim_apply _ bcast_S_S50000x128 (constant (F := Ideal) S_ .f32 0x00000000#32) i (fun a => a.elim0) (fun a => a.elim0)

/-- One layer's dense part as the reference writes it, (Σ mean·wl + bias) + Σ x·wr then the rectifier, is the layer of the
specification: the extended reals' addition is commutative and associative. -/
theorem layer_ref (mean x : FVec Ideal S50000x128 .f32) (wl wr : FVec Ideal S128x128 .f32) (b : FVec Ideal S1x128 .f32) :
    maximumf (addf (addf (Host.dotGeneral (F := Ideal) dot_S50000x128_S128x128_S50000x128_1_0_0_1_n_n none mean wl)
          (broadcastInDim S50000x128 ![0, 1] bcast_S1x128_S50000x128_0_1 b))
        (Host.dotGeneral (F := Ideal) dot_S50000x128_S128x128_S50000x128_1_0_0_1_n_n none x wr))
      (broadcastInDim S50000x128 ![] bcast_S_S50000x128 (constant (F := Ideal) S_ .f32 0x00000000#32))
    = Cert.Spec.layer mean x wl b wr := by
  funext i
  obtain ⟨r, c, rfl⟩ : ∃ (r : Fin 50000) (c : Fin 128), i = ix2 r c := ⟨i 0, i 1, eq_ix2 i⟩
  show max ((Host.dotGeneral (F := Ideal) dot_S50000x128_S128x128_S50000x128_1_0_0_1_n_n none mean wl (ix2 r c)
        + broadcastInDim S50000x128 ![0, 1] bcast_S1x128_S50000x128_0_1 b (ix2 r c))
      + Host.dotGeneral (F := Ideal) dot_S50000x128_S128x128_S50000x128_1_0_0_1_n_n none x wr (ix2 r c))
      (broadcastInDim S50000x128 ![] bcast_S_S50000x128 (constant (F := Ideal) S_ .f32 0x00000000#32) (ix2 r c))
    = Cert.Spec.layerAt mean x wl b wr r c
  rw [dot_apply, dot_apply, biasRows_apply, zeros_apply]
  unfold Cert.Spec.layerAt
  rw [add_right_comm]

/-- The reference's weight matrix of layer `l`: the slice of the stack, as a matrix, transposed, reads the stack at `(l, c, k)`. -/
theorem wRef_apply (o : Nat) (W : FVec Ideal S3x128x128 .f32) (h : S3x128x128.Slices ![o, 0, 0] S1x128x128)
    (hc : S1x128x128.ShapeCasts S128x128) (ht : S128x128.Transposes [1, 0] S128x128)
    (l : Fin 3) (hl : l.val = o) (k c : Fin 128) :
    transpose S128x128 [1, 0] (shapeCast S128x128 (extractStridedSlice S1x128x128 ![o, 0, 0] W h) hc) ht (ix2 k c)
      = W (ix3 l c k) := by
  rw [transpose_ix2_apply, shapeCast_1ab_ab_apply]
  exact extractStridedSlice_apply _ _ _ _ _ (fun ax => by
    match ax with
    | ⟨0, _⟩ => exact hl.trans (Nat.add_zero _).symm
    | ⟨1, _⟩ => exact (Nat.zero_add _).symm
    | ⟨2, _⟩ => exact (Nat.zero_add _).symm)

/-- The other order: the stack with its last two axes exchanged, then the slice as a matrix, reads the same element. -/
theorem wShared_apply (o : Nat) (W : FVec Ideal S3x128x128 .f32) (ht3 : S3x128x128.Transposes [0, 2, 1] S3x128x128)
    (h : S3x128x128.Slices ![o, 0, 0] S1x128x128) (hc : S1x128x128.ShapeCasts S128x128)
    (l : Fin 3) (hl : l.val = o) (k c : Fin 128) :
    shapeCast S128x128 (extractStridedSlice S1x128x128 ![o, 0, 0] (transpose S3x128x128 [0, 2, 1] W ht3) h) hc (ix2 k c)
      = W (ix3 l c k) := by
  rw [shapeCast_1ab_ab_apply]
  refine (extractStridedSlice_apply _ _ _ _ (ix3 l k c) (fun ax => by
    match ax with
    | ⟨0, _⟩ => exact hl.trans (Nat.add_zero _).symm
    | ⟨1, _⟩ => exact (Nat.zero_add _).symm
    | ⟨2, _⟩ => exact (Nat.zero_add _).symm)).trans ?_
  exact transpose_ix3_021_apply W ht3 l k c

theorem v29_eq (a4 : FVec Ideal S3x128x128 .f32) : val_main_v29 (F := Ideal) a4 = Cert.Shared.w0 a4 := by
  funext i
  obtain ⟨k, c, rfl⟩ : ∃ (k c : Fin 128), i = ix2 k c := ⟨i 0, i 1, eq_ix2 i⟩
  exact (wRef_apply 0 a4 _ _ _ 0 rfl k c).trans (wShared_apply 0 a4 _ _ _ 0 rfl k c).symm
theorem v34_eq (a6 : FVec Ideal S3x128x128 .f32) : val_main_v34 (F := Ideal) a6 = Cert.Shared.w0 a6 := by
  funext i
  obtain ⟨k, c, rfl⟩ : ∃ (k c : Fin 128), i = ix2 k c := ⟨i 0, i 1, eq_ix2 i⟩
  exact (wRef_apply 0 a6 _ _ _ 0 rfl k c).trans (wShared_apply 0 a6 _ _ _ 0 rfl k c).symm
theorem v63_eq (a4 : FVec Ideal S3x128x128 .f32) : val_main_v63 (F := Ideal) a4 = Cert.Shared.w1 a4 := by
  funext i
  obtain ⟨k, c, rfl⟩ : ∃ (k c : Fin 128), i = ix2 k c := ⟨i 0, i 1, eq_ix2 i⟩
  exact (wRef_apply 1 a4 _ _ _ 1 rfl k c).trans (wShared_apply 1 a4 _ _ _ 1 rfl k c).symm
theorem v68_eq (a6 : FVec Ideal S3x128x128 .f32) : val_main_v68 (F := Ideal) a6 = Cert.Shared.w1 a6 := by
  funext i
  obtain ⟨k, c, rfl⟩ : ∃ (k c : Fin 128), i = ix2 k c := ⟨i 0, i 1, eq_ix2 i⟩
  exact (wRef_apply 1 a6 _ _ _ 1 rfl k c).trans (wShared_apply 1 a6 _ _ _ 1 rfl k c).symm
theorem v97_eq (a4 : FVec Ideal S3x128x128 .f32) : val_main_v97 (F := Ideal) a4 = Cert.Shared.w2 a4 := by
  funext i
  obtain ⟨k, c, rfl⟩ : ∃ (k c : Fin 128), i = ix2 k c := ⟨i 0, i 1, eq_ix2 i⟩
  exact (wRef_apply 2 a4 _ _ _ 2 rfl k c).trans (wShared_apply 2 a4 _ _ _ 2 rfl k c).symm
theorem v102_eq (a6 : FVec Ideal S3x128x128 .f32) : val_main_v102 (F := Ideal) a6 = Cert.Shared.w2 a6 := by
  funext i
  obtain ⟨k, c, rfl⟩ : ∃ (k c : Fin 128), i = ix2 k c := ⟨i 0, i 1, eq_ix2 i⟩
  exact (wRef_apply 2 a6 _ _ _ 2 rfl k c).trans (wShared_apply 2 a6 _ _ _ 2 rfl k c).symm

/-- The reference's bias row of layer `l`: the slice of the bias matrix, as a vector, given a unit leading axis, reads the
bias matrix at `(l, c)`. -/
theorem bRef_apply (o : Nat) (B : FVec Ideal S3x128 .f32) (h : S3x128.Slices ![o, 0] S1x128) (hc : S1x128.ShapeCasts S128)
    (hb : S128.BroadcastsInDim S1x128 (![1] : Fin 1 → Fin S1x128.rank)) (l : Fin 3) (hl : l.val = o) (u : Fin 1) (c : Fin 128) :
    broadcastInDim S1x128 ![1] hb (shapeCast S128 (extractStridedSlice S1x128 ![o, 0] B h) hc) (ix2 u c) = B (ix2 l c) := by
  refine (broadcastInDim_apply _ hb _ (ix2 u c) (ix1 c) (fun a => match a with
    | ⟨0, _⟩ => by show c.val = if (128 : Nat) = 1 then 0 else c.val; rw [if_neg (by decide)])).trans ?_
  rw [shapeCast_1a_a_apply]
  exact extractStridedSlice_apply _ _ _ _ _ (fun ax => by
    match ax with
    | ⟨0, _⟩ => exact hl.trans (Nat.add_zero _).symm
    | ⟨1, _⟩ => exact (Nat.zero_add _).symm)

/-- The other order: the bias matrix given a unit middle axis, its slice, as a row, reads the same element. -/
theorem bShared_apply (o : Nat) (B : FVec Ideal S3x128 .f32) (h3 : S3x128.ShapeCasts ⟨3, ![3, 1, 128]⟩)
    (h : (⟨3, ![3, 1, 128]⟩ : Shape).Slices ![o, 0, 0] ⟨3, ![1, 1, 128]⟩) (hc : (⟨3, ![1, 1, 128]⟩ : Shape).ShapeCasts S1x128)
    (l : Fin 3) (hl : l.val = o) (u : Fin 1) (c : Fin 128) :
    shapeCast S1x128 (extractStridedSlice ⟨3, ![1, 1, 128]⟩ ![o, 0, 0] (shapeCast ⟨3, ![3, 1, 128]⟩ B h3) h) hc (ix2 u c)
      = B (ix2 l c) := by
  rw [shapeCast_1ab_ab_apply]
  refine (extractStridedSlice_apply _ _ _ _ (ix3 l u c) (fun ax => by
    match ax with
    | ⟨0, _⟩ => exact hl.trans (Nat.add_zero _).symm
    | ⟨1, _⟩ => exact (Nat.zero_add _).symm
    | ⟨2, _⟩ => exact (Nat.zero_add _).symm)).trans ?_
  exact shapeCast_apply B h3 _ _ (by
    have hu : u.val = 0 := by omega
    rw [Shape.rowMajor_val_two, Shape.rowMajor_val_three]
    show l.val * 128 + c.val = (l.val * 1 + u.val) * 128 + c.val
    rw [hu, Nat.mul_one, Nat.add_zero])

theorem v31_eq (a5 : FVec Ideal S3x128 .f32) : val_main_v31 (F := Ideal) a5 = Cert.Shared.b0 a5 := by
  funext i
  obtain ⟨u, c, rfl⟩ : ∃ (u : Fin 1) (c : Fin 128), i = ix2 u c := ⟨i 0, i 1, eq_ix2 i⟩
  exact (bRef_apply 0 a5 _ _ _ 0 rfl u c).trans (bShared_apply 0 a5 _ _ _ 0 rfl u c).symm
theorem v65_eq (a5 : FVec Ideal S3x128 .f32) : val_main_v65 (F := Ideal) a5 = Cert.Shared.b1 a5 := by
  funext i
  obtain ⟨u, c, rfl⟩ : ∃ (u : Fin 1) (c : Fin 128), i = ix2 u c := ⟨i 0, i 1, eq_ix2 i⟩
  exact (bRef_apply 1 a5 _ _ _ 1 rfl u c).trans (bShared_apply 1 a5 _ _ _ 1 rfl u c).symm
theorem v99_eq (a5 : FVec Ideal S3x128 .f32) : val_main_v99 (F := Ideal) a5 = Cert.Shared.b2 a5 := by
  funext i
  obtain ⟨u, c, rfl⟩ : ∃ (u : Fin 1) (c : Fin 128), i = ix2 u c := ⟨i 0, i 1, eq_ix2 i⟩
  exact (bRef_apply 2 a5 _ _ _ 2 rfl u c).trans (bShared_apply 2 a5 _ _ _ 2 rfl u c).symm

/-- The reference's first mean aggregation is the shared chain of host operations on the same operands. -/
theorem v28_eq (a0 : FVec Ideal S50000x128 .f32) (a2 : IVec S2x600000 32) :
    val_main_v28 (F := Ideal) a0 a2 = Cert.Shared.agg a0 a2 := rfl

/-- The features after layer 0. -/
theorem v37_eq (a0 : FVec Ideal S50000x128 .f32) (a2 : IVec S2x600000 32) (a4 : FVec Ideal S3x128x128 .f32)
    (a5 : FVec Ideal S3x128 .f32) (a6 : FVec Ideal S3x128x128 .f32) :
    val_main_v37 (F := Ideal) a0 a2 a4 a5 a6 = Cert.Shared.X1 a0 a2 a4 a5 a6 := by
  refine (layer_ref (val_main_v28 (F := Ideal) a0 a2) a0 (val_main_v29 (F := Ideal) a4) (val_main_v34 (F := Ideal) a6)
    (val_main_v31 (F := Ideal) a5)).trans ?_
  rw [v28_eq, v29_eq, v34_eq, v31_eq]
  rfl

/-- The second mean aggregation is the shared chain on the features after layer 0. -/
theorem v62_eq (a0 : FVec Ideal S50000x128 .f32) (a2 : IVec S2x600000 32) (a4 : FVec Ideal S3x128x128 .f32)
    (a5 : FVec Ideal S3x128 .f32) (a6 : FVec Ideal S3x128x128 .f32) :
    val_main_v62 (F := Ideal) a0 a2 a4 a5 a6 = Cert.Shared.agg (val_main_v37 (F := Ideal) a0 a2 a4 a5 a6) a2 := rfl

/-- The features after layer 1. -/
theorem v71_eq (a0 : FVec Ideal S50000x128 .f32) (a2 : IVec S2x600000 32) (a4 : FVec Ideal S3x128x128 .f32)
    (a5 : FVec Ideal S3x128 .f32) (a6 : FVec Ideal S3x128x128 .f32) :
    val_main_v71 (F := Ideal) a0 a2 a4 a5 a6 = Cert.Shared.X2 a0 a2 a4 a5 a6 := by
  refine (layer_ref (val_main_v62 (F := Ideal) a0 a2 a4 a5 a6) (val_main_v37 (F := Ideal) a0 a2 a4 a5 a6)
    (val_main_v63 (F := Ideal) a4) (val_main_v68 (F := Ideal) a6) (val_main_v65 (F := Ideal) a5)).trans ?_
  rw [v62_eq, v37_eq, v63_eq, v68_eq, v65_eq]
  rfl

/-- The third mean aggregation is the shared chain on the features after layer 1. -/
theorem v96_eq (a0 : FVec Ideal S50000x128 .f32) (a2 : IVec S2x600000 32) (a4 : FVec Ideal S3x128x128 .f32)
    (a5 : FVec Ideal S3x128 .f32) (a6 : FVec Ideal S3x128x128 .f32) :
    val_main_v96 (F := Ideal) a0 a2 a4 a5 a6 = Cert.Shared.agg (val_main_v71 (F := Ideal) a0 a2 a4 a5 a6) a2 := rfl

/-- The features after layer 2. -/
theorem v105_eq (a0 : FVec Ideal S50000x128 .f32) (a2 : IVec S2x600000 32) (a4 : FVec Ideal S3x128x128 .f32)
    (a5 : FVec Ideal S3x128 .f32) (a6 : FVec Ideal S3x128x128 .f32) :
    val_main_v105 (F := Ideal) a0 a2 a4 a5 a6 = Cert.Shared.X3 a0 a2 a4 a5 a6 := by
  refine (layer_ref (val_main_v96 (F := Ideal) a0 a2 a4 a5 a6) (val_main_v71 (F := Ideal) a0 a2 a4 a5 a6)
    (val_main_v97 (F := Ideal) a4) (val_main_v102 (F := Ideal) a6) (val_main_v99 (F := Ideal) a5)).trans ?_
  rw [v96_eq, v71_eq, v97_eq, v102_eq, v99_eq]
  rfl

/-- The pooling is the shared scatter-add on the features after layer 2. -/
theorem v108_eq (a0 : FVec Ideal S50000x128 .f32) (a2 : IVec S2x600000 32) (a3 : IVec S50000 32) (a4 : FVec Ideal S3x128x128 .f32)
    (a5 : FVec Ideal S3x128 .f32) (a6 : FVec Ideal S3x128x128 .f32) :
    val_main_v108 (F := Ideal) a0 a2 a3 a4 a5 a6 = Cert.Shared.pool (val_main_v105 (F := Ideal) a0 a2 a4 a5 a6) a3 := rfl

/-- The head's first product read at graph `r`, feature `c`. -/
theorem dot1_apply (y0 : FVec Ideal S500x128 .f32) (y1 : FVec Ideal S128x128 .f32) (r : Fin 500) (c : Fin 128) :
    Host.dotGeneral (F := Ideal) dot_S500x128_S128x128_S500x128_1_0_0_1_n_n none y0 y1 (ix2 r c)
      = ∑ k : Fin 128, y0 (ix2 r k) * y1 (ix2 k c) := by
  simp only [Host.dotGeneral]
  rw [Ideal.dotGeneral_apply, ← Equiv.sum_comp (ValueIdx.contrEquiv1 dot_S500x128_S128x128_S500x128_1_0_0_1_n_n 128 rfl rfl).symm]
  refine Finset.sum_congr rfl fun k _ => ?_
  have hk := ValueIdx.contrEquiv1_symm_val dot_S500x128_S128x128_S500x128_1_0_0_1_n_n 128 rfl rfl k
  have el : dot_S500x128_S128x128_S500x128_1_0_0_1_n_n.lhsIdx (ix2 r c) ((ValueIdx.contrEquiv1 dot_S500x128_S128x128_S500x128_1_0_0_1_n_n 128 rfl rfl).symm k) = ix2 r k := funext fun a => Fin.ext (by
    match a with
    | ⟨0, _⟩ => exact lhs_main_v111_0 _ _
    | ⟨1, _⟩ => exact (lhs_main_v111_1 _ _).trans hk)
  have er : dot_S500x128_S128x128_S500x128_1_0_0_1_n_n.rhsIdx (ix2 r c) ((ValueIdx.contrEquiv1 dot_S500x128_S128x128_S500x128_1_0_0_1_n_n 128 rfl rfl).symm k) = ix2 k c := funext fun a => Fin.ext (by
    match a with
    | ⟨0, _⟩ => exact (rhs_main_v111_0 _ _).trans hk
    | ⟨1, _⟩ => exact rhs_main_v111_1 _ _)
  rw [el, er]

/-- The head's second product read at graph `r`, class `c`. -/
theorem dot2_apply (y0 : FVec Ideal S500x128 .f32) (y1 : FVec Ideal S128x10 .f32) (r : Fin 500) (c : Fin 10) :
    Host.dotGeneral (F := Ideal) dot_S500x128_S128x10_S500x10_1_0_0_1_n_n none y0 y1 (ix2 r c)
      = ∑ k : Fin 128, y0 (ix2 r k) * y1 (ix2 k c) := by
  simp only [Host.dotGeneral]
  rw [Ideal.dotGeneral_apply, ← Equiv.sum_comp (ValueIdx.contrEquiv1 dot_S500x128_S128x10_S500x10_1_0_0_1_n_n 128 rfl rfl).symm]
  refine Finset.sum_congr rfl fun k _ => ?_
  have hk := ValueIdx.contrEquiv1_symm_val dot_S500x128_S128x10_S500x10_1_0_0_1_n_n 128 rfl rfl k
  have el : dot_S500x128_S128x10_S500x10_1_0_0_1_n_n.lhsIdx (ix2 r c) ((ValueIdx.contrEquiv1 dot_S500x128_S128x10_S500x10_1_0_0_1_n_n 128 rfl rfl).symm k) = ix2 r k := funext fun a => Fin.ext (by
    match a with
    | ⟨0, _⟩ => exact lhs_main_v117_0 _ _
    | ⟨1, _⟩ => exact (lhs_main_v117_1 _ _).trans hk)
  have er : dot_S500x128_S128x10_S500x10_1_0_0_1_n_n.rhsIdx (ix2 r c) ((ValueIdx.contrEquiv1 dot_S500x128_S128x10_S500x10_1_0_0_1_n_n 128 rfl rfl).symm k) = ix2 k c := funext fun a => Fin.ext (by
    match a with
    | ⟨0, _⟩ => exact (rhs_main_v117_0 _ _).trans hk
    | ⟨1, _⟩ => exact rhs_main_v117_1 _ _)
  rw [el, er]

/-- The zero word repeated over the graphs and features reads the zero word. -/
theorem zeros500_apply (i : S500x128.Idx) :
    broadcastInDim S500x128 ![] bcast_S_S500x128 (constant (F := Ideal) S_ .f32 0x00000000#32) i = Cert.Spec.Z :=
  broadcastInDim_apply _ bcast_S_S500x128 (constant (F := Ideal) S_ .f32 0x00000000#32) i (fun a => a.elim0) (fun a => a.elim0)

/-- The first bias row repeated over the graphs reads its one row. -/
theorem biasRows500_apply (b : FVec Ideal S1x128 .f32) (r : Fin 500) (c : Fin 128) :
    broadcastInDim S500x128 ![0, 1] bcast_S1x128_S500x128_0_1 b (ix2 r c) = b (ix2 (0 : Fin 1) c) :=
  broadcastInDim_apply _ bcast_S1x128_S500x128_0_1 b (ix2 r c) (ix2 (0 : Fin 1) c) (fun a => match a with
    | ⟨0, _⟩ => by show 0 = if (1 : Nat) = 1 then 0 else r.val; rw [if_pos rfl]
    | ⟨1, _⟩ => by show c.val = if (128 : Nat) = 1 then 0 else c.val; rw [if_neg (by decide)])

/-- The second bias row repeated over the graphs reads its one row. -/
theorem biasRows10_apply (b : FVec Ideal S1x10 .f32) (r : Fin 500) (j : Fin 10) :
    broadcastInDim S500x10 ![0, 1] bcast_S1x10_S500x10_0_1 b (ix2 r j) = b (ix2 (0 : Fin 1) j) :=
  broadcastInDim_apply _ bcast_S1x10_S500x10_0_1 b (ix2 r j) (ix2 (0 : Fin 1) j) (fun a => match a with
    | ⟨0, _⟩ => by show 0 = if (1 : Nat) = 1 then 0 else r.val; rw [if_pos rfl]
    | ⟨1, _⟩ => by show j.val = if (10 : Nat) = 1 then 0 else j.val; rw [if_neg (by decide)])

/-- The head's logits as the reference writes them are the specification's, one pooled row at a time. -/
theorem logits_ref (P : FVec Ideal S500x128 .f32) (W1 : FVec Ideal S128x128 .f32) (B1 : FVec Ideal S1x128 .f32)
    (W2 : FVec Ideal S128x10 .f32) (B2 : FVec Ideal S1x10 .f32) (r : Fin 500) (j : Fin 10) :
    addf (Host.dotGeneral (F := Ideal) dot_S500x128_S128x10_S500x10_1_0_0_1_n_n none
        (maximumf (addf (Host.dotGeneral (F := Ideal) dot_S500x128_S128x128_S500x128_1_0_0_1_n_n none
            (maximumf P (broadcastInDim S500x128 ![] bcast_S_S500x128 (constant (F := Ideal) S_ .f32 0x00000000#32))) W1)
          (broadcastInDim S500x128 ![0, 1] bcast_S1x128_S500x128_0_1 B1))
          (broadcastInDim S500x128 ![] bcast_S_S500x128 (constant (F := Ideal) S_ .f32 0x00000000#32))) W2)
      (broadcastInDim S500x10 ![0, 1] bcast_S1x10_S500x10_0_1 B2) (ix2 r j)
    = Cert.Spec.logit (fun k => P (ix2 r k)) W1 B1 W2 B2 j := by
  rw [addf_apply, dot2_apply, biasRows10_apply]
  unfold Cert.Spec.logit
  refine congrArg (· + B2 (ix2 (0 : Fin 1) j)) (Finset.sum_congr rfl fun c _ => ?_)
  refine congrArg (· * W2 (ix2 c j)) ?_
  rw [maximumf_apply, addf_apply, dot1_apply, biasRows500_apply, zeros500_apply]
  unfold Cert.Spec.hidden
  refine congrArg (fun s => max (s + B1 (ix2 (0 : Fin 1) c)) Cert.Spec.Z) (Finset.sum_congr rfl fun k _ => ?_)
  rw [maximumf_apply, zeros500_apply]

/-- A vector over the graphs given a unit trailing axis reads the vector. -/
theorem unitCol_apply (v : FVec Ideal S500 .f32) (r : Fin 500) (u : Fin 1) :
    broadcastInDim S500x1 ![0] bcast_S500_S500x1_0 v (ix2 r u) = v (ix1 r) :=
  broadcastInDim_apply _ bcast_S500_S500x1_0 v (ix2 r u) (ix1 r) (fun a => match a with
    | ⟨0, _⟩ => by show r.val = if (500 : Nat) = 1 then 0 else r.val; rw [if_neg (by decide)])

/-- One column repeated over the classes reads the column. -/
theorem colBcast_apply (v : FVec Ideal S500x1 .f32) (r : Fin 500) (j : Fin 10) :
    broadcastInDim S500x10 ![0, 1] bcast_S500x1_S500x10_0_1 v (ix2 r j) = v (ix2 r (0 : Fin 1)) :=
  broadcastInDim_apply _ bcast_S500x1_S500x10_0_1 v (ix2 r j) (ix2 r (0 : Fin 1)) (fun a => match a with
    | ⟨0, _⟩ => by show r.val = if (500 : Nat) = 1 then 0 else r.val; rw [if_neg (by decide)]
    | ⟨1, _⟩ => by show 0 = if (1 : Nat) = 1 then 0 else j.val; rw [if_pos rfl])

/-- The host's logarithm reads elementwise. -/
theorem hostLog_apply {s : Shape} (x : FVec Ideal s .f32) (i : s.Idx) : Host.log x i = Ideal.log (x i) := rfl

/-- The host's exponential reads elementwise. -/
theorem hostExp_apply {s : Shape} (x : FVec Ideal s .f32) (i : s.Idx) : Host.exp x i = Ideal.exp (x i) := rfl

/-- The reduced index `r` with class `k` put back is (r, k). -/
theorem lift_row (h : S500x10.Reduces [1] S500) (r : Fin 500) (k : Fin (S500x10.size 1)) :
    h.lift (ix1 r) k = ix2 r (⟨k.val, k.isLt⟩ : Fin 10) := by
  funext c; apply Fin.ext
  fin_cases c <;> rfl

/-- The maximum of −∞ and anything is the other. -/
theorem max_negInf (y : EReal) : max (Ideal.ofBits .f32 0xFF800000#32) y = y := by
  simp [Ideal.ofBits, Ideal.ieee]

/-- The reference's row maximum, max(−∞, the reduce by maximum from −∞ over the classes), is the fold of the specification. -/
theorem rowMax_ref (L : FVec Ideal S500x10 .f32) (r : Fin 500) :
    maximumf (broadcastInDim S500 ![] bcast_S_S500 (constant (F := Ideal) S_ .f32 0xFF800000#32))
      (Host.reduce FloatOps.maximumf L (constant (F := Ideal) S_ .f32 0xFF800000#32) reducesTo_S500x10_S500_d1 h_S_) (ix1 r)
    = Cert.Spec.rowMax (fun j => L (ix2 r j)) := by
  have h : S500x10.Reduces [1] S500 := by decide
  rw [maximumf_apply, Host.reduce_eq_fold_single FloatOps.maximumf L _ reducesTo_S500x10_S500_d1 h h_S_]
  have h0 : broadcastInDim S500 ![] bcast_S_S500 (constant (F := Ideal) S_ .f32 0xFF800000#32) (ix1 r)
      = Ideal.ofBits .f32 0xFF800000#32 :=
    broadcastInDim_apply _ bcast_S_S500 (constant (F := Ideal) S_ .f32 0xFF800000#32) (ix1 r) (fun a => a.elim0) (fun a => a.elim0)
  rw [h0, max_negInf]
  have hf : (L ∘ h.lift (ix1 r)) = fun j : Fin 10 => L (ix2 r j) := funext fun k => congrArg L (lift_row h r k)
  exact congrArg (fun f => Finset.fold max (Ideal.ofBits .f32 0xFF800000#32) f (Finset.univ : Finset (Fin 10))) hf

/-- The host's sum over the classes from the zero word is the sum. -/
theorem rowSum_ref (y : FVec Ideal S500x10 .f32) (r : Fin 500) :
    Host.reduceAdd y (constant (F := Ideal) S_ .f32 0x00000000#32) reducesTo_S500x10_S500_d1 h_S_ (ix1 r)
      = ∑ j : Fin 10, y (ix2 r j) := by
  have h : S500x10.Reduces [1] S500 := by decide
  simp only [Host.reduceAdd, Ideal.hostReduceAdd_def]
  rw [Ideal.hostReduceAdd_single reducesTo_S500x10_S500_d1 h, constant_apply, Ideal.ofBits_zero_f32, zero_add]
  exact Finset.sum_congr rfl fun k _ => congrArg y (lift_row h r k)

/-- The reference's log-softmax of an array of logits is the specification's, one row at a time. -/
theorem logSoftmax_ref (L : FVec Ideal S500x10 .f32) (r : Fin 500) (j : Fin 10) :
    subf
      (subf L (broadcastInDim S500x10 ![0, 1] bcast_S500x1_S500x10_0_1 (broadcastInDim S500x1 ![0] bcast_S500_S500x1_0
        (maximumf (broadcastInDim S500 ![] bcast_S_S500 (constant (F := Ideal) S_ .f32 0xFF800000#32))
          (Host.reduce FloatOps.maximumf L (constant (F := Ideal) S_ .f32 0xFF800000#32) reducesTo_S500x10_S500_d1 h_S_)))))
      (broadcastInDim S500x10 ![0, 1] bcast_S500x1_S500x10_0_1 (Host.log (broadcastInDim S500x1 ![0] bcast_S500_S500x1_0
        (Host.reduceAdd (Host.exp
          (subf L (broadcastInDim S500x10 ![0, 1] bcast_S500x1_S500x10_0_1 (broadcastInDim S500x1 ![0] bcast_S500_S500x1_0
            (maximumf (broadcastInDim S500 ![] bcast_S_S500 (constant (F := Ideal) S_ .f32 0xFF800000#32))
              (Host.reduce FloatOps.maximumf L (constant (F := Ideal) S_ .f32 0xFF800000#32) reducesTo_S500x10_S500_d1 h_S_))))))
          (constant (F := Ideal) S_ .f32 0x00000000#32) reducesTo_S500x10_S500_d1 h_S_)))) (ix2 r j)
    = Cert.Spec.logSoftmaxRow (fun j => L (ix2 r j)) j := by
  have hs : ∀ j' : Fin 10,
      subf L (broadcastInDim S500x10 ![0, 1] bcast_S500x1_S500x10_0_1 (broadcastInDim S500x1 ![0] bcast_S500_S500x1_0
        (maximumf (broadcastInDim S500 ![] bcast_S_S500 (constant (F := Ideal) S_ .f32 0xFF800000#32))
          (Host.reduce FloatOps.maximumf L (constant (F := Ideal) S_ .f32 0xFF800000#32) reducesTo_S500x10_S500_d1 h_S_)))) (ix2 r j')
      = L (ix2 r j') - Cert.Spec.rowMax (fun j => L (ix2 r j)) := fun j' => by
    rw [subf_apply, colBcast_apply, unitCol_apply, rowMax_ref]
  rw [subf_apply, hs, colBcast_apply]
  unfold Cert.Spec.logSoftmaxRow
  refine congrArg (fun t => (L (ix2 r j) - Cert.Spec.rowMax (fun j => L (ix2 r j))) - t) ?_
  rw [hostLog_apply, unitCol_apply, rowSum_ref]
  refine congrArg Ideal.log (Finset.sum_congr rfl fun j' _ => ?_)
  rw [hostExp_apply, hs]

/-- The head's first weight: the same transpose. -/
theorem v110_eq (a7 : FVec Ideal S128x128 .f32) : val_main_v110 (F := Ideal) a7 = Cert.Shared.hW1 a7 := rfl

/-- The head's second weight: the same transpose. -/
theorem v116_eq (a9 : FVec Ideal S10x128 .f32) : val_main_v116 (F := Ideal) a9 = Cert.Shared.hW2 a9 := rfl

/-- The head's first bias given a unit leading axis, either way, reads the bias. -/
theorem v112_eq (a8 : FVec Ideal S128 .f32) : val_main_v112 (F := Ideal) a8 = Cert.Shared.hB1 a8 := by
  funext i
  obtain ⟨u, c, rfl⟩ : ∃ (u : Fin 1) (c : Fin 128), i = ix2 u c := ⟨i 0, i 1, eq_ix2 i⟩
  refine (broadcastInDim_apply _ bcast_S128_S1x128_1 a8 (ix2 u c) (ix1 c) (fun a => match a with
    | ⟨0, _⟩ => by show c.val = if (128 : Nat) = 1 then 0 else c.val; rw [if_neg (by decide)])).trans ?_
  exact (shapeCast_a_1a_apply a8 _ u c).symm

/-- The head's second bias given a unit leading axis, either way, reads the bias. -/
theorem v118_eq (a10 : FVec Ideal S10 .f32) : val_main_v118 (F := Ideal) a10 = Cert.Shared.hB2 a10 := by
  funext i
  obtain ⟨u, c, rfl⟩ : ∃ (u : Fin 1) (c : Fin 10), i = ix2 u c := ⟨i 0, i 1, eq_ix2 i⟩
  refine (broadcastInDim_apply _ bcast_S10_S1x10_1 a10 (ix2 u c) (ix1 c) (fun a => match a with
    | ⟨0, _⟩ => by show c.val = if (10 : Nat) = 1 then 0 else c.val; rw [if_neg (by decide)])).trans ?_
  exact (shapeCast_a_1a_apply a10 _ u c).symm

/-- The reference's result is the network of the shared definition. -/
theorem ref_eq (a0 : FVec Ideal S50000x128 .f32) (a2 : IVec S2x600000 32) (a3 : IVec S50000 32) (a4 : FVec Ideal S3x128x128 .f32) (a5 : FVec Ideal S3x128 .f32) (a6 : FVec Ideal S3x128x128 .f32) (a7 : FVec Ideal S128x128 .f32) (a8 : FVec Ideal S128 .f32) (a9 : FVec Ideal S10x128 .f32) (a10 : FVec Ideal S10 .f32) :
    val_main_v121 (F := Ideal) a0 a2 a3 a4 a5 a6 a7 a8 a9 a10 = Cert.Shared.OUT a0 a2 a3 a4 a5 a6 a7 a8 a9 a10 := by
  funext i
  obtain ⟨r, j, rfl⟩ : ∃ (r : Fin 500) (j : Fin 10), i = ix2 r j := ⟨i 0, i 1, eq_ix2 i⟩
  refine (logSoftmax_ref (val_main_v120 (F := Ideal) a0 a2 a3 a4 a5 a6 a7 a8 a9 a10) r j).trans ?_
  have hL : (fun j' => val_main_v120 (F := Ideal) a0 a2 a3 a4 a5 a6 a7 a8 a9 a10 (ix2 r j'))
      = Cert.Spec.logit (fun k => Cert.Shared.pool (Cert.Shared.X3 a0 a2 a4 a5 a6) a3 (ix2 r k))
          (Cert.Shared.hW1 a7) (Cert.Shared.hB1 a8) (Cert.Shared.hW2 a9) (Cert.Shared.hB2 a10) := by
    funext j'
    refine (logits_ref (val_main_v108 (F := Ideal) a0 a2 a3 a4 a5 a6) (val_main_v110 (F := Ideal) a7)
      (val_main_v112 (F := Ideal) a8) (val_main_v116 (F := Ideal) a9) (val_main_v118 (F := Ideal) a10) r j').trans ?_
    rw [v108_eq, v105_eq, v110_eq, v112_eq, v116_eq, v118_eq]
  rw [hL]
  rfl

end Cert.ReferenceIdeal.RefValue

end
-- ==== Proof.lean ====
/-
  The certificate. Both idealized programs compute the same network: three SAGE layers — the mean of the source rows
  at each target node (gather, scatter-add, division by the clamped in-degree), then
  `max(mean·Wlᵀ + x·Wrᵀ + b, 0)` — a sum of the node rows per graph, and a head (rectifier, two dense layers, log-softmax
  along the ten classes). The kernel computes each layer's dense part in ten row blocks and the head on rows padded to
  512, of which the 500 true rows are kept; the reference computes them on whole arrays, adding the bias before the
  second product. At the ideal values the two agree index by index by commutativity and associativity of addition of
  extended reals alone, so the precondition is never opened. The aggregation and the pooling are the same host
  operations in both programs and are carried unopened.

  `frame` of the two kernels is the generated frame; the reference's is its generated run with the result dropped.
  `preserves` is trivial: the idealization rewrote nothing.
-/
import proofs.«107780_j45122926412013_1_alg».proof.Defs
import proofs.«107780_j45122926412013_1_alg».proof.Proof.Gen.Kernel
import proofs.«107780_j45122926412013_1_alg».proof.Proof.Gen.Kernel.Frame
import proofs.«107780_j45122926412013_1_alg».proof.Proof.Gen.KernelIdeal
import proofs.«107780_j45122926412013_1_alg».proof.Proof.Gen.KernelIdeal.Frame
import proofs.«107780_j45122926412013_1_alg».proof.Proof.Gen.ReferenceIdeal
import proofs.«107780_j45122926412013_1_alg».proof.Proof.Gen.Pre_finite_inputs
import proofs.«107780_j45122926412013_1_alg».proof.Proof.Gen.ReferenceIdeal.Run
import proofs.«107780_j45122926412013_1_alg».proof.Proof.Gen.ReferenceIdeal.Read
import proofs.«107780_j45122926412013_1_alg».proof.Proof.KValue
import proofs.«107780_j45122926412013_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the network's function of the arguments, which agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v121_eq, Cert.ReferenceIdeal.RefValue.ref_eq]
  obtain ⟨h0, h1, h2, h3, h4, h5, h6, h7, h8, h9, h10⟩ := hagree c
  rw [h0, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
